-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x12x512x512 : Shape := ⟨4, ![16, 12, 512, 512]⟩
abbrev S_ : Shape := ⟨0, ![]⟩

class Facts : Prop where
  bcast_S_S16x12x512x512 : S_.BroadcastsInDim S16x12x512x512 (![] : Fin 0 → Fin S16x12x512x512.rank)
  reducesTo_S16x12x512x512_S_d0_1_2_3 : S16x12x512x512.ReducesTo [0, 1, 2, 3] S_
  h_S_ : 0 < S_.numel

variable [Facts]

def fn {F : FTy → Type} [FloatOps F] (main_arg0 : FVec F S16x12x512x512 .f32) : IVec S_ 1 :=
  let main_v0 : FVec F S16x12x512x512 .f32 := Host.absf main_arg0
  let main_cst : FVec F S_ .f32 := constant S_ .f32 0x7F800000#32
  let main_v1 : FVec F S16x12x512x512 .f32 := broadcastInDim S16x12x512x512 ![] bcast_S_S16x12x512x512 main_cst
  let main_v2 : IVec S16x12x512x512 1 := cmpf .olt main_v0 main_v1
  let main_c : IVec S_ 1 := constantI S_ 1 1#1
  let main_v3 : IVec S_ 1 := (fun x v => Host.reduce IntOp.andi x v reducesTo_S16x12x512x512_S_d0_1_2_3 h_S_) main_v2 main_c
  main_v3
-- ==== Kernel.lean ====
abbrev S16x12x512x512 : Shape := ⟨4, ![16, 12, 512, 512]⟩
abbrev S16x3x4x512x512 : Shape := ⟨5, ![16, 3, 4, 512, 512]⟩
abbrev S16x3x1024x1024 : Shape := ⟨4, ![16, 3, 1024, 1024]⟩
abbrev S1x1x4x512x512 : Shape := ⟨5, ![1, 1, 4, 512, 512]⟩
abbrev S1x1x1024x1024 : Shape := ⟨4, ![1, 1, 1024, 1024]⟩
abbrev S1x1x1x512x512 : Shape := ⟨5, ![1, 1, 1, 512, 512]⟩
abbrev S512x512 : Shape := ⟨2, ![512, 512]⟩
abbrev S512x512x1 : Shape := ⟨3, ![512, 512, 1]⟩
abbrev S512x512x2 : Shape := ⟨3, ![512, 512, 2]⟩
abbrev S512x1024 : Shape := ⟨2, ![512, 1024]⟩
abbrev S512x1x1024 : Shape := ⟨3, ![512, 1, 1024]⟩
abbrev S512x2x1024 : Shape := ⟨3, ![512, 2, 1024]⟩
abbrev S1024x1024 : Shape := ⟨2, ![1024, 1024]⟩

abbrev nBuf : Space → Nat
  | .hbm => 3
  | .vmem => 4
  | .smem => 0
  | _ => 0

abbrev bufTy : (tb : Table) → Fin (tcTables nBuf tb) → BufTy
  | .hbm, ⟨0, _⟩ => ⟨S16x12x512x512, .f32⟩
  | .hbm, ⟨1, _⟩ => ⟨S16x3x4x512x512, .f32⟩
  | .hbm, ⟨2, _⟩ => ⟨S16x3x1024x1024, .f32⟩
  | .local _ .vmem, ⟨0, _⟩ => ⟨S1x1x4x512x512, .f32⟩
  | .local _ .vmem, ⟨1, _⟩ => ⟨S1x1x4x512x512, .f32⟩
  | .local _ .vmem, ⟨2, _⟩ => ⟨S1x1x1024x1024, .f32⟩
  | .local _ .vmem, ⟨3, _⟩ => ⟨S1x1x1024x1024, .f32⟩
  | _, _ => ⟨S16x12x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 3], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S16x12x512x512_S16x3x4x512x512 : S16x12x512x512.ShapeCasts S16x3x4x512x512
  inb_S1x1x4x512x512_S1x1x1x512x512_0_0_0_0_0 : ∀ a, (![0, 0, 0, 0, 0] : Fin 5 → Nat) a + S1x1x1x512x512.size a ≤ S1x1x4x512x512.size a
  h_S1x1x1x512x512 : 0 < S1x1x1x512x512.numel
  shapeCasts_S1x1x1x512x512_S512x512 : S1x1x1x512x512.ShapeCasts S512x512
  inb_S1x1x4x512x512_S1x1x1x512x512_0_0_1_0_0 : ∀ a, (![0, 0, 1, 0, 0] : Fin 5 → Nat) a + S1x1x1x512x512.size a ≤ S1x1x4x512x512.size a
  inb_S1x1x4x512x512_S1x1x1x512x512_0_0_2_0_0 : ∀ a, (![0, 0, 2, 0, 0] : Fin 5 → Nat) a + S1x1x1x512x512.size a ≤ S1x1x4x512x512.size a
  inb_S1x1x4x512x512_S1x1x1x512x512_0_0_3_0_0 : ∀ a, (![0, 0, 3, 0, 0] : Fin 5 → Nat) a + S1x1x1x512x512.size a ≤ S1x1x4x512x512.size a
  shapeCasts_S512x512_S512x512x1 : S512x512.ShapeCasts S512x512x1
  concatenates_S512x512x1_S512x512x1_S512x512x2_d2 : Shape.Concatenates [S512x512x1, S512x512x1] S512x512x2 2
  shapeCasts_S512x512x2_S512x1024 : S512x512x2.ShapeCasts S512x1024
  shapeCasts_S512x1024_S512x1x1024 : S512x1024.ShapeCasts S512x1x1024
  concatenates_S512x1x1024_S512x1x1024_S512x2x1024_d1 : Shape.Concatenates [S512x1x1024, S512x1x1024] S512x2x1024 1
  shapeCasts_S512x2x1024_S1024x1024 : S512x2x1024.ShapeCasts S1024x1024
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  shapeCasts_S1024x1024_S1x1x1024x1024 : S1024x1024.ShapeCasts S1x1x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4x512x512.size a ≤ S16x3x4x512x512.size a
  hwx0_0 : ∀ i : grid0.Coords, EltTy.bits .f32 = 32 ∨ (Rect.block (s := S16x3x4x512x512) S1x1x4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S16x3x1024x1024.size a
  hwx0_1 : ∀ i : grid0.Coords, EltTy.bits .f32 = 32 ∨ (Rect.block (s := S16x3x1024x1024) S1x1x1024x1024.size (cc0_transform_1 i) (hinb0_1 i)).WholeWords (EltTy.packing .f32)

variable [Facts₀]

abbrev win0_0 : Pipeline.Window sig grid0 :=
  Pipeline.Window.ofSpec (Memref.whole main_v0) S1x1x4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x12x512x512 : Shape := ⟨4, ![16, 12, 512, 512]⟩
abbrev S16x3x4x512x512 : Shape := ⟨5, ![16, 3, 4, 512, 512]⟩
abbrev S16x3x1x512x512 : Shape := ⟨5, ![16, 3, 1, 512, 512]⟩
abbrev S16x3x512x512 : Shape := ⟨4, ![16, 3, 512, 512]⟩
abbrev S_ : Shape := ⟨0, ![]⟩
abbrev S16x3x512x512x1 : Shape := ⟨5, ![16, 3, 512, 512, 1]⟩
abbrev S16x3x512x512x2 : Shape := ⟨5, ![16, 3, 512, 512, 2]⟩
abbrev S16x3x512x1024 : Shape := ⟨4, ![16, 3, 512, 1024]⟩
abbrev S16x3x512x1x1024 : Shape := ⟨5, ![16, 3, 512, 1, 1024]⟩
abbrev S16x3x512x2x1024 : Shape := ⟨5, ![16, 3, 512, 2, 1024]⟩
abbrev S16x3x1024x1024 : Shape := ⟨4, ![16, 3, 1024, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16x12x512x512, .f32⟩
  | .hbm, ⟨1, _⟩ => ⟨S16x3x4x512x512, .f32⟩
  | .hbm, ⟨2, _⟩ => ⟨S16x3x1x512x512, .f32⟩
  | .hbm, ⟨3, _⟩ => ⟨S16x3x512x512, .f32⟩
  | .hbm, ⟨4, _⟩ => ⟨S16x3x1x512x512, .f32⟩
  | .hbm, ⟨5, _⟩ => ⟨S16x3x512x512, .f32⟩
  | .hbm, ⟨6, _⟩ => ⟨S16x3x1x512x512, .f32⟩
  | .hbm, ⟨7, _⟩ => ⟨S16x3x512x512, .f32⟩
  | .hbm, ⟨8, _⟩ => ⟨S16x3x1x512x512, .f32⟩
  | .hbm, ⟨9, _⟩ => ⟨S16x3x512x512, .f32⟩
  | .hbm, ⟨10, _⟩ => ⟨S16x3x512x512, .f32⟩
  | .hbm, ⟨11, _⟩ => ⟨S16x3x512x512, .f32⟩
  | .hbm, ⟨12, _⟩ => ⟨S16x3x512x512, .f32⟩
  | .hbm, ⟨13, _⟩ => ⟨S_, .f32⟩
  | .hbm, ⟨14, _⟩ => ⟨S16x3x512x512, .f32⟩
  | .hbm, ⟨15, _⟩ => ⟨S16x3x512x512, .f32⟩
  | .hbm, ⟨16, _⟩ => ⟨S16x3x512x512, .f32⟩
  | .hbm, ⟨17, _⟩ => ⟨S16x3x512x512, .f32⟩
  | .hbm, ⟨18, _⟩ => ⟨S16x3x512x512, .f32⟩
  | .hbm, ⟨19, _⟩ => ⟨S_, .f32⟩
  | .hbm, ⟨20, _⟩ => ⟨S16x3x512x512, .f32⟩
  | .hbm, ⟨21, _⟩ => ⟨S16x3x512x512, .f32⟩
  | .hbm, ⟨22, _⟩ => ⟨S16x3x512x512, .f32⟩
  | .hbm, ⟨23, _⟩ => ⟨S16x3x512x512, .f32⟩
  | .hbm, ⟨24, _⟩ => ⟨S16x3x512x512, .f32⟩
  | .hbm, ⟨25, _⟩ => ⟨S_, .f32⟩
  | .hbm, ⟨26, _⟩ => ⟨S16x3x512x512, .f32⟩
  | .hbm, ⟨27, _⟩ => ⟨S16x3x512x512, .f32⟩
  | .hbm, ⟨28, _⟩ => ⟨S16x3x512x512, .f32⟩
  | .hbm, ⟨29, _⟩ => ⟨S16x3x512x512, .f32⟩
  | .hbm, ⟨30, _⟩ => ⟨S16x3x512x512, .f32⟩
  | .hbm, ⟨31, _⟩ => ⟨S_, .f32⟩
  | .hbm, ⟨32, _⟩ => ⟨S16x3x512x512, .f32⟩
  | .hbm, ⟨33, _⟩ => ⟨S16x3x512x512, .f32⟩
  | .hbm, ⟨34, _⟩ => ⟨S16x3x512x512x1, .f32⟩
  | .hbm, ⟨35, _⟩ => ⟨S16x3x512x512x1, .f32⟩
  | .hbm, ⟨36, _⟩ => ⟨S16x3x512x512x2, .f32⟩
  | .hbm, ⟨37, _⟩ => ⟨S16x3x512x1024, .f32⟩
  | .hbm, ⟨38, _⟩ => ⟨S16x3x512x512x1, .f32⟩
  | .hbm, ⟨39, _⟩ => ⟨S16x3x512x512x1, .f32⟩
  | .hbm, ⟨40, _⟩ => ⟨S16x3x512x512x2, .f32⟩
  | .hbm, ⟨41, _⟩ => ⟨S16x3x512x1024, .f32⟩
  | .hbm, ⟨42, _⟩ => ⟨S16x3x512x1x1024, .f32⟩
  | .hbm, ⟨43, _⟩ => ⟨S16x3x512x1x1024, .f32⟩
  | .hbm, ⟨44, _⟩ => ⟨S16x3x512x2x1024, .f32⟩
  | .hbm, ⟨45, _⟩ => ⟨S16x3x1024x1024, .f32⟩
  | _, _ => ⟨S16x12x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_1 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_2 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩

abbrev nD : Nat := 1
abbrev τ : Topo := Topo.v7x

variable {F : FTy → Type} [FloatOps F]

class Facts₀ : Prop where
  shapeCasts_S16x12x512x512_S16x3x4x512x512 : S16x12x512x512.ShapeCasts S16x3x4x512x512
  slices_S16x3x4x512x512_S16x3x1x512x512_0_0_0_0_0 : S16x3x4x512x512.Slices ![0, 0, 0, 0, 0] S16x3x1x512x512
  shapeCasts_S16x3x1x512x512_S16x3x512x512 : S16x3x1x512x512.ShapeCasts S16x3x512x512
  slices_S16x3x4x512x512_S16x3x1x512x512_0_0_1_0_0 : S16x3x4x512x512.Slices ![0, 0, 1, 0, 0] S16x3x1x512x512
  slices_S16x3x4x512x512_S16x3x1x512x512_0_0_2_0_0 : S16x3x4x512x512.Slices ![0, 0, 2, 0, 0] S16x3x1x512x512
  slices_S16x3x4x512x512_S16x3x1x512x512_0_0_3_0_0 : S16x3x4x512x512.Slices ![0, 0, 3, 0, 0] S16x3x1x512x512
  bcast_S_S16x3x512x512 : S_.BroadcastsInDim S16x3x512x512 (![] : Fin 0 → Fin S16x3x512x512.rank)
  bcast_S16x3x512x512_S16x3x512x512x1_0_1_2_3 : S16x3x512x512.BroadcastsInDim S16x3x512x512x1 (![0, 1, 2, 3] : Fin 4 → Fin S16x3x512x512x1.rank)
  concatenates_S16x3x512x512x1_S16x3x512x512x1_S16x3x512x512x2_d4 : Shape.Concatenates [S16x3x512x512x1, S16x3x512x512x1] S16x3x512x512x2 4
  shapeCasts_S16x3x512x512x2_S16x3x512x1024 : S16x3x512x512x2.ShapeCasts S16x3x512x1024
  bcast_S16x3x512x1024_S16x3x512x1x1024_0_1_2_4 : S16x3x512x1024.BroadcastsInDim S16x3x512x1x1024 (![0, 1, 2, 4] : Fin 4 → Fin S16x3x512x1x1024.rank)
  concatenates_S16x3x512x1x1024_S16x3x512x1x1024_S16x3x512x2x1024_d3 : Shape.Concatenates [S16x3x512x1x1024, S16x3x512x1x1024] S16x3x512x2x1024 3
  shapeCasts_S16x3x512x2x1024_S16x3x1024x1024 : S16x3x512x2x1024.ShapeCasts S16x3x1024x1024

variable [Facts₀]

class Facts : Prop extends Facts₀ where

variable [Facts]
-- ==== Proof.LibInterleave.lean ====
/-
  Interleaving two arrays by stack-and-reshape, read at an index, at the extents 512 / 1024.

  * along the last axis: two [512, 512] arrays u, w, each viewed [512, 512, 1], joined on that unit axis to
    [512, 512, 2] and flattened to [512, 1024], hold u at the even columns and w at the odd ones:
    entry (i, s) is u (i, s / 2) when s is even and w (i, s / 2) when s is odd (lanes_apply);
  * along the rows: two [512, 1024] arrays u, w, each viewed [512, 1, 1024], joined on that unit axis to
    [512, 2, 1024] and flattened to [1024, 1024], hold u at the even rows and w at the odd ones (rows_apply);
  * a [1024, 1024] array viewed [1, 1, 1024, 1024] keeps its entries (lead_apply);
  * plane k of a [1, 1, 4, 512, 512] block, cut out as [1, 1, 1, 512, 512] and viewed [512, 512], reads the block
    at (0, 0, k, i, j) (plane_apply).

  The element type is arbitrary: nothing here computes with the entries.
-/
import Idealize.ShloMosaic.Lib.Pipeline.Value
import Idealize.ShloMosaic.Lib.ValueIdx

namespace Cert.Interleave

open Idealize.ShloMosaic Idealize.ShloMosaic.ValueIdx

/-- The source coordinate of an interleaved coordinate: two neighbours share one source. -/
def halfOf (s : Fin 1024) : Fin 512 := ⟨s.val / 2, by have := s.isLt; omega⟩

theorem halfOf_val (s : Fin 1024) : (halfOf s).val = s.val / 2 := rfl

variable {α : Type}

/-- Two [512, 512] arrays interleaved along the last axis: even columns from the first, odd from the second. -/
theorem lanes_apply (u w : (⟨2, ![512, 512]⟩ : Shape).Idx → α)
    (h1 : (⟨2, ![512, 512]⟩ : Shape).ShapeCasts ⟨3, ![512, 512, 1]⟩)
    (hc : Shape.Concatenates [(⟨3, ![512, 512, 1]⟩ : Shape), ⟨3, ![512, 512, 1]⟩] ⟨3, ![512, 512, 2]⟩ 2)
    (h2 : (⟨3, ![512, 512, 2]⟩ : Shape).ShapeCasts ⟨2, ![512, 1024]⟩) (i : Fin 512) (s : Fin 1024) :
    shapeCast ⟨2, ![512, 1024]⟩
        (concatenate ⟨3, ![512, 512, 2]⟩ 2
          [⟨⟨3, ![512, 512, 1]⟩, shapeCast ⟨3, ![512, 512, 1]⟩ u h1⟩, ⟨⟨3, ![512, 512, 1]⟩, shapeCast ⟨3, ![512, 512, 1]⟩ w h1⟩] hc)
        h2 (ix2 i s)
      = if s.val % 2 = 0 then u (ix2 i (halfOf s)) else w (ix2 i (halfOf s)) := by
  have hs := s.isLt
  have hi := i.isLt
  have e1 : ∀ v : (⟨2, ![512, 512]⟩ : Shape).Idx → α,
      shapeCast ⟨3, ![512, 512, 1]⟩ v h1 (ix3 i (halfOf s) (0 : Fin 1)) = v (ix2 i (halfOf s)) := fun v =>
    shapeCast_apply v h1 _ _ (by
      rw [Shape.rowMajor_val_two, Shape.rowMajor_val_three]
      show i.val * 512 + s.val / 2 = (i.val * 512 + s.val / 2) * 1 + 0
      omega)
  refine (shapeCast_apply _ h2 (ix2 i s) (ix3 i (halfOf s) (⟨s.val % 2, by omega⟩ : Fin 2)) ?_).trans ?_
  · rw [Shape.rowMajor_val_three, Shape.rowMajor_val_two]
    show (i.val * 512 + s.val / 2) * 2 + s.val % 2 = i.val * 1024 + s.val
    omega
  by_cases hp : s.val % 2 = 0
  · rw [if_pos hp]
    refine (concatenate_pair_apply_left (t := ⟨3, ![512, 512, 2]⟩) (2 : Fin 3) _ _ hc _ rfl (ix3 i (halfOf s) (0 : Fin 1)) ?_).trans (e1 u)
    intro b
    match b with
    | ⟨0, _⟩ => rfl
    | ⟨1, _⟩ => rfl
    | ⟨2, _⟩ => show 0 = s.val % 2; omega
  · rw [if_neg hp]
    refine (concatenate_pair_apply_right (t := ⟨3, ![512, 512, 2]⟩) (2 : Fin 3) _ _ hc _ rfl rfl (ix3 i (halfOf s) (0 : Fin 1)) ?_ ?_).trans (e1 w)
    · intro b hb
      match b, hb with
      | ⟨0, _⟩, _ => rfl
      | ⟨1, _⟩, _ => rfl
      | ⟨2, _⟩, hb => exact absurd (Fin.ext rfl) hb
    · show 0 + 1 = s.val % 2
      omega

/-- Two [512, 1024] arrays interleaved along the rows: even rows from the first, odd from the second. -/
theorem rows_apply (u w : (⟨2, ![512, 1024]⟩ : Shape).Idx → α)
    (h1 : (⟨2, ![512, 1024]⟩ : Shape).ShapeCasts ⟨3, ![512, 1, 1024]⟩)
    (hc : Shape.Concatenates [(⟨3, ![512, 1, 1024]⟩ : Shape), ⟨3, ![512, 1, 1024]⟩] ⟨3, ![512, 2, 1024]⟩ 1)
    (h2 : (⟨3, ![512, 2, 1024]⟩ : Shape).ShapeCasts ⟨2, ![1024, 1024]⟩) (r s : Fin 1024) :
    shapeCast ⟨2, ![1024, 1024]⟩
        (concatenate ⟨3, ![512, 2, 1024]⟩ 1
          [⟨⟨3, ![512, 1, 1024]⟩, shapeCast ⟨3, ![512, 1, 1024]⟩ u h1⟩, ⟨⟨3, ![512, 1, 1024]⟩, shapeCast ⟨3, ![512, 1, 1024]⟩ w h1⟩] hc)
        h2 (ix2 r s)
      = if r.val % 2 = 0 then u (ix2 (halfOf r) s) else w (ix2 (halfOf r) s) := by
  have hr := r.isLt
  have hs := s.isLt
  have e1 : ∀ v : (⟨2, ![512, 1024]⟩ : Shape).Idx → α,
      shapeCast ⟨3, ![512, 1, 1024]⟩ v h1 (ix3 (halfOf r) (0 : Fin 1) s) = v (ix2 (halfOf r) s) := fun v =>
    shapeCast_apply v h1 _ _ (by
      rw [Shape.rowMajor_val_two, Shape.rowMajor_val_three]
      show r.val / 2 * 1024 + s.val = (r.val / 2 * 1 + 0) * 1024 + s.val
      omega)
  refine (shapeCast_apply _ h2 (ix2 r s) (ix3 (halfOf r) (⟨r.val % 2, by omega⟩ : Fin 2) s) ?_).trans ?_
  · rw [Shape.rowMajor_val_three, Shape.rowMajor_val_two]
    show (r.val / 2 * 2 + r.val % 2) * 1024 + s.val = r.val * 1024 + s.val
    omega
  by_cases hp : r.val % 2 = 0
  · rw [if_pos hp]
    refine (concatenate_pair_apply_left (t := ⟨3, ![512, 2, 1024]⟩) (1 : Fin 3) _ _ hc _ rfl (ix3 (halfOf r) (0 : Fin 1) s) ?_).trans (e1 u)
    intro b
    match b with
    | ⟨0, _⟩ => rfl
    | ⟨1, _⟩ => show 0 = r.val % 2; omega
    | ⟨2, _⟩ => rfl
  · rw [if_neg hp]
    refine (concatenate_pair_apply_right (t := ⟨3, ![512, 2, 1024]⟩) (1 : Fin 3) _ _ hc _ rfl rfl (ix3 (halfOf r) (0 : Fin 1) s) ?_ ?_).trans (e1 w)
    · intro b hb
      match b, hb with
      | ⟨0, _⟩, _ => rfl
      | ⟨1, _⟩, hb => exact absurd (Fin.ext rfl) hb
      | ⟨2, _⟩, _ => rfl
    · show 0 + 1 = r.val % 2
      omega

/-- A [1024, 1024] array viewed as a [1, 1, 1024, 1024] block keeps its entries. -/
theorem lead_apply (v : (⟨2, ![1024, 1024]⟩ : Shape).Idx → α)
    (h : (⟨2, ![1024, 1024]⟩ : Shape).ShapeCasts ⟨4, ![1, 1, 1024, 1024]⟩) (a b : Fin 1) (r s : Fin 1024) :
    shapeCast ⟨4, ![1, 1, 1024, 1024]⟩ v h (ix4 a b r s) = v (ix2 r s) :=
  shapeCast_apply v h _ _ (by
    rw [Shape.rowMajor_val_two, Shape.rowMajor_val_four]
    have ha := a.isLt
    have hb := b.isLt
    show r.val * 1024 + s.val = ((a.val * 1 + b.val) * 1024 + r.val) * 1024 + s.val
    omega)

/-- Plane k of a [1, 1, 4, 512, 512] block, cut out and viewed [512, 512], reads the block at (0, 0, k, i, j). -/
theorem plane_apply {Val : EltTy → Type} {e : EltTy} (X : (⟨5, ![1, 1, 4, 512, 512]⟩ : Shape).Idx → Val e) (k : Fin 4)
    (inb : ∀ a, (![0, 0, k.val, 0, 0] : Fin 5 → Nat) a + (⟨5, ![1, 1, 1, 512, 512]⟩ : Shape).size a ≤ (⟨5, ![1, 1, 4, 512, 512]⟩ : Shape).size a)
    (h : (⟨5, ![1, 1, 1, 512, 512]⟩ : Shape).ShapeCasts ⟨2, ![512, 512]⟩) (i j : Fin 512) :
    shapeCast ⟨2, ![512, 512]⟩
        (View.ld X (Rect.unit (s := ⟨5, ![1, 1, 4, 512, 512]⟩) ![0, 0, k.val, 0, 0] (⟨5, ![1, 1, 1, 512, 512]⟩ : Shape).size inb)) h (ix2 i j)
      = X (ix5 (0 : Fin 1) (0 : Fin 1) k i j) := by
  refine (shapeCast_apply _ h (ix2 i j) (ix5 (0 : Fin 1) (0 : Fin 1) (0 : Fin 1) i j) ?_).trans ?_
  · rw [Shape.rowMajor_val_five, Shape.rowMajor_val_two]
    show (((0 * 1 + 0) * 1 + 0) * 512 + i.val) * 512 + j.val = i.val * 512 + j.val
    omega
  show X _ = X _
  refine congrArg X (funext fun a => Fin.ext ?_)
  match a with
  | ⟨0, _⟩ => rfl
  | ⟨1, _⟩ => rfl
  | ⟨2, _⟩ => show k.val + 1 * 0 = k.val; omega
  | ⟨3, _⟩ => show 0 + 1 * i.val = i.val; omega
  | ⟨4, _⟩ => show 0 + 1 * j.val = j.val; omega

end Cert.Interleave
-- ==== Proof.HaarSpec.lean ====
/-
  One step of the inverse two-dimensional Haar transform, as a function of the coefficient planes.

  The input holds, for each of 16 samples and 3 colour channels, four 512 × 512 coefficient planes a, h, v, d
  (approximation, and the details along the two axes and the diagonal): an array z of shape [16, 3, 4, 512, 512].
  The output, of shape [16, 3, 1024, 1024], has one 2 × 2 cell per coefficient position (i, j):

      out (2i,   2j)   = (a + h + v + d) · ½        out (2i,   2j+1) = (a + h − v − d) · ½
      out (2i+1, 2j)   = (a − h + v − d) · ½        out (2i+1, 2j+1) = (a − h − v + d) · ½

  with a, h, v, d read at (i, j), the sums and differences taken from left to right. So entry (r, s) depends on the
  four planes at (r / 2, s / 2) only, and the parities of r and s choose the signs (butterfly).
  Stated for any float instance: both programs spell these operations the same way, so no law of arithmetic is used.
-/
import Idealize.ShloMosaic.PureOps
import Idealize.ShloMosaic.Lib.ValueIdx
import proofs.«112358_j36739150250539_1_alg».proof.Proof.LibInterleave

noncomputable section

namespace Cert.Haar

open Idealize.ShloMosaic Idealize.ShloMosaic.ValueIdx Cert.Interleave

variable {F : FTy → Type} [FloatOps F]

/-- One half, as the 32-bit pattern both programs carry. -/
def oneHalf : F .f32 := FloatOps.ofBits .f32 0x3F000000#32

/-- The entry of a 2 × 2 cell at row parity p and column parity q, from the four coefficients. -/
def butterfly (p q : Nat) (a h v d : F .f32) : F .f32 :=
  if p = 0 then
    if q = 0 then FloatOps.mulf (FloatOps.addf (FloatOps.addf (FloatOps.addf a h) v) d) oneHalf
    else FloatOps.mulf (FloatOps.subf (FloatOps.subf (FloatOps.addf a h) v) d) oneHalf
  else
    if q = 0 then FloatOps.mulf (FloatOps.subf (FloatOps.addf (FloatOps.subf a h) v) d) oneHalf
    else FloatOps.mulf (FloatOps.addf (FloatOps.subf (FloatOps.subf a h) v) d) oneHalf

theorem butterfly_even_even (a h v d : F .f32) :
    butterfly 0 0 a h v d = FloatOps.mulf (FloatOps.addf (FloatOps.addf (FloatOps.addf a h) v) d) oneHalf := rfl
theorem butterfly_even_odd (a h v d : F .f32) :
    butterfly 0 1 a h v d = FloatOps.mulf (FloatOps.subf (FloatOps.subf (FloatOps.addf a h) v) d) oneHalf := rfl
theorem butterfly_odd_even (a h v d : F .f32) :
    butterfly 1 0 a h v d = FloatOps.mulf (FloatOps.subf (FloatOps.addf (FloatOps.subf a h) v) d) oneHalf := rfl
theorem butterfly_odd_odd (a h v d : F .f32) :
    butterfly 1 1 a h v d = FloatOps.mulf (FloatOps.addf (FloatOps.subf (FloatOps.subf a h) v) d) oneHalf := rfl

/-- A remainder by two is zero or one. -/
theorem parity_cases (n : Nat) : n % 2 = 0 ∨ n % 2 = 1 := by omega

/-- Output entry (r, s) of sample b, channel c. -/
def cell (z : (⟨5, ![16, 3, 4, 512, 512]⟩ : Shape).Idx → F .f32) (b : Fin 16) (c : Fin 3) (r s : Fin 1024) : F .f32 :=
  butterfly (r.val % 2) (s.val % 2)
    (z (ix5 b c (0 : Fin 4) (halfOf r) (halfOf s))) (z (ix5 b c (1 : Fin 4) (halfOf r) (halfOf s)))
    (z (ix5 b c (2 : Fin 4) (halfOf r) (halfOf s))) (z (ix5 b c (3 : Fin 4) (halfOf r) (halfOf s)))

/-- The whole output array. -/
def inverseHaar (z : (⟨5, ![16, 3, 4, 512, 512]⟩ : Shape).Idx → F .f32) :
    (⟨4, ![16, 3, 1024, 1024]⟩ : Shape).Idx → F .f32 :=
  fun j => cell z (j 0) (j 1) (j 2) (j 3)

theorem inverseHaar_apply (z : (⟨5, ![16, 3, 4, 512, 512]⟩ : Shape).Idx → F .f32) (b : Fin 16) (c : Fin 3) (r s : Fin 1024) :
    inverseHaar z (ix4 b c r s) = cell z b c r s := rfl

/-- The same cell inside one sample-and-channel block [1, 1, 4, 512, 512] of the input. -/
def blockCell (x : (⟨5, ![1, 1, 4, 512, 512]⟩ : Shape).Idx → F .f32) (r s : Fin 1024) : F .f32 :=
  butterfly (r.val % 2) (s.val % 2)
    (x (ix5 (0 : Fin 1) (0 : Fin 1) (0 : Fin 4) (halfOf r) (halfOf s))) (x (ix5 (0 : Fin 1) (0 : Fin 1) (1 : Fin 4) (halfOf r) (halfOf s)))
    (x (ix5 (0 : Fin 1) (0 : Fin 1) (2 : Fin 4) (halfOf r) (halfOf s))) (x (ix5 (0 : Fin 1) (0 : Fin 1) (3 : Fin 4) (halfOf r) (halfOf s)))

end Cert.Haar

end
-- ==== Proof.HaarBody.lean ====
/-
  What the kernel's body leaves in its output block, entry by entry.

  At one grid point the body reads one [1, 1, 4, 512, 512] block x of the coefficient array — the four planes of one
  sample and channel —, forms the four signed half-sums of the planes, lays the first two side by side column by
  column and likewise the last two, and then the two results side by side row by row, into a [1024, 1024] array stored
  as the [1, 1, 1024, 1024] output block. Read at (0, 0, r, s) this is the cell entry of parities (r mod 2, s mod 2)
  over the planes at (r / 2, s / 2): the row interleave chooses between the two column interleaves by the parity of
  r, each column interleave between its two half-sums by the parity of s, and a plane of the block, cut out and
  viewed [512, 512], reads the block at its plane number.
-/
import proofs.«112358_j36739150250539_1_alg».proof.Proof.Gen.KernelIdeal.Frame
import proofs.«112358_j36739150250539_1_alg».proof.Proof.HaarSpec

noncomputable section

namespace Cert.Haar.Body

open Cert.KernelIdeal Cert.KernelIdeal.Gen Idealize.ShloMosaic Idealize.ShloMosaic.ValueIdx Cert.Interleave Cert.Haar

variable {F : FTy → Type} [FloatOps F]

theorem zero_offsets : (![0, 0, 0, 0] : Fin 4 → Nat) = fun _ => 0 := funext fun a => by fin_cases a <;> rfl

/-! ## The four planes of the block -/

theorem planeA (x : Vec F S1x1x4x512x512 .f32) (i j : Fin 512) :
    k0_pay2 (View.ld x r0_0) (ix2 i j) = x (ix5 (0 : Fin 1) (0 : Fin 1) (0 : Fin 4) i j) :=
  plane_apply x (0 : Fin 4) _ _ i j

theorem planeH (x : Vec F S1x1x4x512x512 .f32) (i j : Fin 512) :
    k0_pay3 (View.ld x r0_1) (ix2 i j) = x (ix5 (0 : Fin 1) (0 : Fin 1) (1 : Fin 4) i j) :=
  plane_apply x (1 : Fin 4) _ _ i j

theorem planeV (x : Vec F S1x1x4x512x512 .f32) (i j : Fin 512) :
    k0_pay4 (View.ld x r0_2) (ix2 i j) = x (ix5 (0 : Fin 1) (0 : Fin 1) (2 : Fin 4) i j) :=
  plane_apply x (2 : Fin 4) _ _ i j

theorem planeD (x : Vec F S1x1x4x512x512 .f32) (i j : Fin 512) :
    k0_pay5 (View.ld x r0_3) (ix2 i j) = x (ix5 (0 : Fin 1) (0 : Fin 1) (3 : Fin 4) i j) :=
  plane_apply x (3 : Fin 4) _ _ i j

/-! ## The four signed half-sums at an index -/

theorem sum_ppp (A H V D : FVec F S512x512 .f32) (k : F .f32) (y : S512x512.Idx) :
    mulf (addf (addf (addf A H) V) D) (broadcast S512x512 k) y
      = FloatOps.mulf (FloatOps.addf (FloatOps.addf (FloatOps.addf (A y) (H y)) (V y)) (D y)) k := rfl
theorem sum_pmm (A H V D : FVec F S512x512 .f32) (k : F .f32) (y : S512x512.Idx) :
    mulf (subf (subf (addf A H) V) D) (broadcast S512x512 k) y
      = FloatOps.mulf (FloatOps.subf (FloatOps.subf (FloatOps.addf (A y) (H y)) (V y)) (D y)) k := rfl
theorem sum_mpm (A H V D : FVec F S512x512 .f32) (k : F .f32) (y : S512x512.Idx) :
    mulf (subf (addf (subf A H) V) D) (broadcast S512x512 k) y
      = FloatOps.mulf (FloatOps.subf (FloatOps.addf (FloatOps.subf (A y) (H y)) (V y)) (D y)) k := rfl
theorem sum_mmp (A H V D : FVec F S512x512 .f32) (k : F .f32) (y : S512x512.Idx) :
    mulf (addf (subf (subf A H) V) D) (broadcast S512x512 k) y
      = FloatOps.mulf (FloatOps.addf (FloatOps.subf (FloatOps.subf (A y) (H y)) (V y)) (D y)) k := rfl

/-! ## The even output rows and the odd ones -/

/-- The column interleave of the first two half-sums: the even output rows. -/
theorem even_rows (x : Vec F S1x1x4x512x512 .f32) (i : Fin 512) (s : Fin 1024) :
    k0_pay6 (View.ld x r0_0) (View.ld x r0_1) (View.ld x r0_2) (View.ld x r0_3) (ix2 i s)
      = butterfly 0 (s.val % 2)
          (x (ix5 (0 : Fin 1) (0 : Fin 1) (0 : Fin 4) i (halfOf s))) (x (ix5 (0 : Fin 1) (0 : Fin 1) (1 : Fin 4) i (halfOf s)))
          (x (ix5 (0 : Fin 1) (0 : Fin 1) (2 : Fin 4) i (halfOf s))) (x (ix5 (0 : Fin 1) (0 : Fin 1) (3 : Fin 4) i (halfOf s))) := by
  unfold k0_pay6
  refine (lanes_apply _ _ _ _ _ i s).trans ?_
  rcases parity_cases s.val with hs | hs
  · rw [if_pos hs, hs, butterfly_even_even]
    refine (sum_ppp _ _ _ _ _ _).trans ?_
    rw [planeA, planeH, planeV, planeD]
    rfl
  · rw [if_neg (by omega), hs, butterfly_even_odd]
    refine (sum_pmm _ _ _ _ _ _).trans ?_
    rw [planeA, planeH, planeV, planeD]
    rfl

/-- The output block at (0, 0, r, s) is the cell entry of the block's planes. -/
theorem out_apply (x : Vec F S1x1x4x512x512 .f32) (a b : Fin 1) (r s : Fin 1024) :
    out0_1 x (ix4 a b r s) = blockCell x r s := by
  unfold out0_1
  rw [View.canon_unit_zero zero_offsets]
  unfold k0_pay1 blockCell
  refine (lead_apply _ _ a b r s).trans ?_
  refine (rows_apply _ _ _ _ _ r s).trans ?_
  rcases parity_cases r.val with hr | hr
  · rw [if_pos hr, hr]
    exact even_rows x (halfOf r) s
  · rw [if_neg (by omega), hr]
    unfold k0_pay7 k0_pay8
    refine (lanes_apply _ _ _ _ _ (halfOf r) s).trans ?_
    rcases parity_cases s.val with hs | hs
    · rw [if_pos hs, hs, butterfly_odd_even]
      refine (sum_mpm _ _ _ _ _ _).trans ?_
      rw [planeA, planeH, planeV, planeD]
      rfl
    · rw [if_neg (by omega), hs, butterfly_odd_odd]
      refine (sum_mmp _ _ _ _ _ _).trans ?_
      rw [planeA, planeH, planeV, planeD]
      rfl

/-- The same at any index of the block. -/
theorem out_apply' (x : Vec F S1x1x4x512x512 .f32) (y : S1x1x1024x1024.Idx) :
    out0_1 x y = blockCell x (y 2) (y 3) := by
  obtain ⟨a, b, r, s, rfl⟩ : ∃ (a b : Fin 1) (r s : Fin 1024), y = ix4 a b r s := ⟨y 0, y 1, y 2, y 3, eq_ix4 y⟩
  exact out_apply x a b r s

end Cert.Haar.Body

end
-- ==== Proof.HaarArray.lean ====
/-
  From the kernel's blocks to its result array.

  The grid has 16 × 3 = 48 points; point t is sample t / 3 and channel t mod 3. Its input block is the
  [1, 1, 4, 512, 512] box of the regrouped input z at (t / 3, t mod 3, 0, 0, 0) and its output block the
  [1, 1, 1024, 1024] box of the result at (t / 3, t mod 3, 0, 0). What the body leaves in the output block is the
  cell entries of the input block's planes; these are the planes of z for that sample and channel, so the block
  written back is the block of the inverse Haar step of z. The 48 output blocks cover the result array — entry
  (b, c, r, s) lies in the block of point 3 b + c —, so after the run the array is the inverse Haar step of z, and
  z is the launch argument reshaped, by the one host operation before the region.
-/
import proofs.«112358_j36739150250539_1_alg».proof.Proof.Gen.KernelIdeal.Value
import proofs.«112358_j36739150250539_1_alg».proof.Proof.HaarBody
import Idealize.ShloMosaic.Lib.Pipeline.Value
import Idealize.ShloMosaic.Lib.StableHlo.Run

noncomputable section

namespace Cert.Haar.Kernel

open Cert.KernelIdeal Cert.KernelIdeal.Gen Idealize.ShloMosaic Idealize.ShloMosaic.TcCoe Idealize.SL.Sem
open Idealize.ShloMosaic.ValueIdx Cert.Interleave Cert.Haar
open Idealize.ShloMosaic.Pipeline (Dat)

variable {F : FTy → Type} [FloatOps F]
variable (m : (ℓ : Loc nD τ sig) → Buf (Elt F) ℓ) (ρ : Dev nD → PrngReg)

/-- The array the input window stages is the launch argument reshaped to [16, 3, 4, 512, 512]. -/
theorem staged (c : Dev nD) :
    (V m c main_v0 : S16x3x4x512x512.Idx → Elt F .f32)
      = shapeCast S16x3x4x512x512 (m ((c : Thread nD τ).loc main_arg0)) shapeCasts_S16x12x512x512_S16x3x4x512x512 := by
  dsimp only [Gen.V, Gen.hostOps0]
  after_results
  rfl

/-- The block index maps over the grid: point t is at sample t / 3 and channel t mod 3 in both windows. -/
theorem index_facts : ∀ t : Fin cfg0.N,
    win0_0.index t (0 : Fin 5) = t.val / 3 ∧ win0_0.index t (1 : Fin 5) = t.val % 3 ∧ win0_0.index t (2 : Fin 5) = 0
    ∧ win0_0.index t (3 : Fin 5) = 0 ∧ win0_0.index t (4 : Fin 5) = 0
    ∧ win0_1.index t (0 : Fin 4) = t.val / 3 ∧ win0_1.index t (1 : Fin 4) = t.val % 3 ∧ win0_1.index t (2 : Fin 4) = 0
    ∧ win0_1.index t (3 : Fin 4) = 0 :=
  (by decide +kernel : ∀ t : Fin grid0.N, _)

theorem points : cfg0.N = 48 := N_0

/-- The sample and the channel of a grid point. -/
def sampleOf (t : Fin cfg0.N) : Fin 16 := ⟨t.val / 3, by have h : t.val < 48 := lt_of_lt_of_eq t.isLt points; omega⟩
def channelOf (t : Fin cfg0.N) : Fin 3 := ⟨t.val % 3, by omega⟩

/-- The input block at point t reads the staged array at that point's sample and channel. -/
theorem iblk_apply (c : Dev nD) (t : Fin cfg0.N) (k : Fin 4) (i j : Fin 512) :
    iblk m c 0 t (ix5 (0 : Fin 1) (0 : Fin 1) k i j) = V m c main_v0 (ix5 (sampleOf t) (channelOf t) k i j) := by
  obtain ⟨e0, e1, e2, e3, e4, -⟩ := index_facts t
  unfold iblk
  rw [View.read_apply]
  show V m c main_v0 _ = V m c main_v0 _
  refine congrArg (V m c main_v0) (funext fun a => Fin.ext ?_)
  match a with
  | ⟨0, _⟩ => show win0_0.index t (0 : Fin 5) * 1 + 1 * 0 = t.val / 3; omega
  | ⟨1, _⟩ => show win0_0.index t (1 : Fin 5) * 1 + 1 * 0 = t.val % 3; omega
  | ⟨2, _⟩ => show win0_0.index t (2 : Fin 5) * 4 + 1 * k.val = k.val; omega
  | ⟨3, _⟩ => show win0_0.index t (3 : Fin 5) * 512 + 1 * i.val = i.val; omega
  | ⟨4, _⟩ => show win0_0.index t (4 : Fin 5) * 512 + 1 * j.val = j.val; omega

/-- The body's output block at point t, entry by entry, is the inverse Haar step of the staged array at that point's
    sample and channel. -/
theorem written_apply (c : Dev nD) (t : Fin cfg0.N) (a b : Fin 1) (r s : Fin 1024) :
    out0_1 (iblk m c 0 t) (ix4 a b r s) = inverseHaar (V m c main_v0) (ix4 (sampleOf t) (channelOf t) r s) := by
  refine (Cert.Haar.Body.out_apply (iblk m c 0 t) a b r s).trans ?_
  rw [inverseHaar_apply]
  unfold blockCell cell
  rw [iblk_apply m c t (0 : Fin 4), iblk_apply m c t (1 : Fin 4), iblk_apply m c t (2 : Fin 4), iblk_apply m c t (3 : Fin 4)]

/-- What point t writes back is its block of the inverse Haar step of the staged array. -/
theorem flushed_eq (c : Dev nD) (t : Fin cfg0.N) :
    (dats m 0 c).flushed 1 t = ((cfg0.win 1).blk t).view.read (Elt F) (inverseHaar (V m c main_v0)) := by
  rw [Cert.KernelIdeal.Value.flushed1]
  obtain ⟨-, -, -, -, -, e0, e1, e2, e3⟩ := index_facts t
  funext y
  show out0_1 (iblk m c 0 t) y = inverseHaar (V m c main_v0) (((cfg0.win 1).blk t).view.emb y)
  obtain ⟨a, b, r, s, rfl⟩ : ∃ (a b : Fin 1) (r s : Fin 1024), y = ix4 a b r s :=
    ⟨y 0, y 1, y 2, y 3, eq_ix4 (n0 := 1) (n1 := 1) (n2 := 1024) (n3 := 1024) y⟩
  have ha := a.isLt
  have hb := b.isLt
  have hemb : ((cfg0.win 1).blk t).view.emb (ix4 a b r s) = ix4 (sampleOf t) (channelOf t) r s := by
    funext k
    apply Fin.ext
    match k with
    | ⟨0, _⟩ => show win0_1.index t (0 : Fin 4) * 1 + 1 * a.val = t.val / 3; omega
    | ⟨1, _⟩ => show win0_1.index t (1 : Fin 4) * 1 + 1 * b.val = t.val % 3; omega
    | ⟨2, _⟩ => show win0_1.index t (2 : Fin 4) * 1024 + 1 * r.val = r.val; omega
    | ⟨3, _⟩ => show win0_1.index t (3 : Fin 4) * 1024 + 1 * s.val = s.val; omega
  rw [hemb]
  exact written_apply m c t a b r s

/-- An index of the result lies in point t's block iff each coordinate lies in the block's range on its axis. -/
theorem mem_blk (t : Fin cfg0.N) (i : S16x3x1024x1024.Idx) :
    i ∈ ((cfg0.win 1).blk t).view.set ↔ ∀ a : Fin 4, win0_1.index t a * S1x1x1024x1024.size a ≤ (i a).val
      ∧ (i a).val < win0_1.index t a * S1x1x1024x1024.size a + S1x1x1024x1024.size a := by
  show i ∈ ((View.whole main_v1).slice (win0_1.rect t)).set ↔ _
  rw [View.set_slice_whole, Rect.mem_set_unit]
  exact Iff.rfl

/-- Entry (b, c, r, s) of the result lies in the block of point 3 b + c. -/
theorem cover (i : S16x3x1024x1024.Idx) :
    ∃ t : Fin cfg0.N, (cfg0.win 1).flush t = true ∧ i ∈ ((cfg0.win 1).blk t).view.set := by
  have h0 : (i 0).val < 16 := (i 0).isLt
  have h1 : (i 1).val < 3 := (i 1).isLt
  have h2 : (i 2).val < 1024 := (i 2).isLt
  have h3 : (i 3).val < 1024 := (i 3).isLt
  have hN : (i 0).val * 3 + (i 1).val < cfg0.N := by rw [points]; omega
  refine ⟨⟨(i 0).val * 3 + (i 1).val, hN⟩, flush0_1 _, ?_⟩
  obtain ⟨-, -, -, -, -, e0, e1, e2, e3⟩ := index_facts ⟨(i 0).val * 3 + (i 1).val, hN⟩
  have ev : (⟨(i 0).val * 3 + (i 1).val, hN⟩ : Fin cfg0.N).val = (i 0).val * 3 + (i 1).val := rfl
  rw [ev] at e0 e1
  rw [mem_blk]
  intro a
  match a with
  | ⟨0, _⟩ =>
    show win0_1.index ⟨(i 0).val * 3 + (i 1).val, hN⟩ (0 : Fin 4) * 1 ≤ (i 0).val
      ∧ (i 0).val < win0_1.index ⟨(i 0).val * 3 + (i 1).val, hN⟩ (0 : Fin 4) * 1 + 1
    omega
  | ⟨1, _⟩ =>
    show win0_1.index ⟨(i 0).val * 3 + (i 1).val, hN⟩ (1 : Fin 4) * 1 ≤ (i 1).val
      ∧ (i 1).val < win0_1.index ⟨(i 0).val * 3 + (i 1).val, hN⟩ (1 : Fin 4) * 1 + 1
    omega
  | ⟨2, _⟩ =>
    show win0_1.index ⟨(i 0).val * 3 + (i 1).val, hN⟩ (2 : Fin 4) * 1024 ≤ (i 2).val
      ∧ (i 2).val < win0_1.index ⟨(i 0).val * 3 + (i 1).val, hN⟩ (2 : Fin 4) * 1024 + 1024
    omega
  | ⟨3, _⟩ =>
    show win0_1.index ⟨(i 0).val * 3 + (i 1).val, hN⟩ (3 : Fin 4) * 1024 ≤ (i 3).val
      ∧ (i 3).val < win0_1.index ⟨(i 0).val * 3 + (i 1).val, hN⟩ (3 : Fin 4) * 1024 + 1024
    omega

/-- After the run the result array is the inverse Haar step of the staged array. -/
theorem final (c : Dev nD) : (dats m 0 c).arrAt 1 cfg0.N = inverseHaar (V m c main_v0) :=
  (dats m 0 c).arrAt_eq_of_cover 1 (inverseHaar (V m c main_v0)) (fun t _ => flushed_eq m c t) cover

/-- The run, read: the result at the inverse Haar step of the reshaped argument, the argument unchanged. -/
theorem run : θ_run defs (onTc (τ := τ) (main (F := F))) ⟨m, fun _ => 0, ρ⟩ fun r => ∀ c : Dev nD,
      r.2.mem ((c : Thread nD τ).loc main_v1)
        = inverseHaar (shapeCast S16x3x4x512x512 (m ((c : Thread nD τ).loc main_arg0)) shapeCasts_S16x12x512x512_S16x3x4x512x512)
      ∧ r.2.mem ((c : Thread nD τ).loc main_arg0) = m ((c : Thread nD τ).loc main_arg0) :=
  (θ_run defs _ _).mono
    (fun r h c => ⟨(h c).1.trans ((final m c).trans (congrArg inverseHaar (staged m c))), (h c).2⟩)
    (Cert.KernelIdeal.Value.run_blocks m ρ)

end Cert.Haar.Kernel

end
-- ==== Proof.HaarRefRun.lean ====
/-
  The reference's run, read back group by group.

  The reference is a straight line of 45 host operations. Read in order: the first 9 regroup the input
  [16, 12, 512, 512] as [16, 3, 4, 512, 512] and slice out the four coefficient planes a, h, v, d of every sample and
  channel; four groups of 6 form the signed half-sums (a + h + v + d) · ½, (a + h − v − d) · ½, (a − h + v − d) · ½,
  (a − h − v + d) · ½; two groups of 4 interleave the first two along the last axis and likewise the last two; the
  last 4 interleave those two along the rows. Each group writes its own few buffers and reads a few buffers of the
  groups before it, which the groups in between leave alone. So the memory after the whole line holds, in the result
  buffer, the composition of the groups' functions applied to the input, and no operation writes the input buffer.
-/
import proofs.«112358_j36739150250539_1_alg».proof.Proof.Gen.ReferenceIdeal
import Idealize.ShloMosaic.Lib.StableHlo.Run

noncomputable section

namespace Cert.Haar.RefRun

open Cert.ReferenceIdeal Cert.ReferenceIdeal.Gen Idealize.ShloMosaic Idealize.ShloMosaic.TcCoe Idealize.SL.Sem Idealize.ShloMosaic.StableHlo

variable {F : FTy → Type} [FloatOps F]

theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem after_append (l₁ l₂ : List (HloOp τ sig (Elt F))) (W : Valuation τ sig (Elt F)) :
    after (l₁ ++ l₂) W = after l₂ (after l₁ W) := by
  induction l₁ generalizing W with
  | nil => rfl
  | cons op l ih => exact ih (op.result W)

/-! ## The line, group by group: the operations, the buffers they write, the side conditions of the run -/

/-- Regrouping and the four planes. -/
abbrev opsPlanes : List (HloOp τ sig (Elt F)) :=
  [ reshape main_arg0 main_v0 rfl shapeCasts_S16x12x512x512_S16x3x4x512x512,
    unary main_v0 main_v1 ((extractStridedSlice S16x3x1x512x512 ![0, 0, 0, 0, 0] · slices_S16x3x4x512x512_S16x3x1x512x512_0_0_0_0_0) : (⟨S16x3x4x512x512, .f32⟩ : BufTy).Contents (Elt F) → (⟨S16x3x1x512x512, .f32⟩ : BufTy).Contents (Elt F)),
    reshape main_v1 main_v2 rfl shapeCasts_S16x3x1x512x512_S16x3x512x512,
    unary main_v0 main_v3 ((extractStridedSlice S16x3x1x512x512 ![0, 0, 1, 0, 0] · slices_S16x3x4x512x512_S16x3x1x512x512_0_0_1_0_0) : (⟨S16x3x4x512x512, .f32⟩ : BufTy).Contents (Elt F) → (⟨S16x3x1x512x512, .f32⟩ : BufTy).Contents (Elt F)),
    reshape main_v3 main_v4 rfl shapeCasts_S16x3x1x512x512_S16x3x512x512,
    unary main_v0 main_v5 ((extractStridedSlice S16x3x1x512x512 ![0, 0, 2, 0, 0] · slices_S16x3x4x512x512_S16x3x1x512x512_0_0_2_0_0) : (⟨S16x3x4x512x512, .f32⟩ : BufTy).Contents (Elt F) → (⟨S16x3x1x512x512, .f32⟩ : BufTy).Contents (Elt F)),
    reshape main_v5 main_v6 rfl shapeCasts_S16x3x1x512x512_S16x3x512x512,
    unary main_v0 main_v7 ((extractStridedSlice S16x3x1x512x512 ![0, 0, 3, 0, 0] · slices_S16x3x4x512x512_S16x3x1x512x512_0_0_3_0_0) : (⟨S16x3x4x512x512, .f32⟩ : BufTy).Contents (Elt F) → (⟨S16x3x1x512x512, .f32⟩ : BufTy).Contents (Elt F)),
    reshape main_v7 main_v8 rfl shapeCasts_S16x3x1x512x512_S16x3x512x512 ]
/-- The buffers these operations write. -/
abbrev wrPlanes : List (Ref sig .tc) := [main_v0, main_v1, main_v2, main_v3, main_v4, main_v5, main_v6, main_v7, main_v8]
theorem subPlanes : (opsPlanes : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., unary_bufs_sub .., reshape_bufs_sub ..⟩
theorem freshPlanes : ∀ op ∈ (opsPlanes : List (HloOp τ sig (Elt F))), op.fresh = ∅ := by
  intro _ h; (repeat (cases h with | head => rfl | tail _ h => ?_)); exact nomatch h
theorem writesPlanes : (opsPlanes : List (HloOp τ sig (Elt F))).Forall fun op => op.writes ⊆ (wrPlanes.map (Proc.devRef (τ := τ) .tc)).toFinset := by
  simp only [List.Forall]
  exact ⟨(by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide))⟩
/-- A buffer they do not write keeps its contents. -/
theorem keepPlanes (W : Valuation τ sig (Elt F)) (r : Ref sig .tc) (h : r ∉ wrPlanes) :
    after opsPlanes W (Proc.devRef .tc r) = W (Proc.devRef .tc r) :=
  after_of_writes_sub opsPlanes _ writesPlanes h

/-- The half-sum a + h + v + d. -/
abbrev opsSumPPP : List (HloOp τ sig (Elt F)) :=
  [ binary main_v2 main_v4 main_v9 (addf : (⟨S16x3x512x512, .f32⟩ : BufTy).Contents (Elt F) → (⟨S16x3x512x512, .f32⟩ : BufTy).Contents (Elt F) → (⟨S16x3x512x512, .f32⟩ : BufTy).Contents (Elt F)),
    binary main_v9 main_v6 main_v10 (addf : (⟨S16x3x512x512, .f32⟩ : BufTy).Contents (Elt F) → (⟨S16x3x512x512, .f32⟩ : BufTy).Contents (Elt F) → (⟨S16x3x512x512, .f32⟩ : BufTy).Contents (Elt F)),
    binary main_v10 main_v8 main_v11 (addf : (⟨S16x3x512x512, .f32⟩ : BufTy).Contents (Elt F) → (⟨S16x3x512x512, .f32⟩ : BufTy).Contents (Elt F) → (⟨S16x3x512x512, .f32⟩ : BufTy).Contents (Elt F)),
    nullary main_cst (constant S_ .f32 0x3F000000#32),
    unary main_cst main_v12 (broadcastInDim S16x3x512x512 ![] bcast_S_S16x3x512x512 : (⟨S_, .f32⟩ : BufTy).Contents (Elt F) → (⟨S16x3x512x512, .f32⟩ : BufTy).Contents (Elt F)),
    binary main_v11 main_v12 main_v13 (mulf : (⟨S16x3x512x512, .f32⟩ : BufTy).Contents (Elt F) → (⟨S16x3x512x512, .f32⟩ : BufTy).Contents (Elt F) → (⟨S16x3x512x512, .f32⟩ : BufTy).Contents (Elt F)) ]
/-- The buffers these operations write. -/
abbrev wrSumPPP : List (Ref sig .tc) := [main_v9, main_v10, main_v11, main_cst, main_v12, main_v13]
theorem subSumPPP : (opsSumPPP : List (HloOp τ sig (Elt F))).Forall fun op => op.bufs ⊆ tcRefs τ sig :=
  ⟨binary_bufs_sub .., binary_bufs_sub .., binary_bufs_sub .., nullary_bufs_sub .., unary_bufs_sub .., binary_bufs_sub ..⟩
theorem freshSumPPP : ∀ op ∈ (opsSumPPP : List (HloOp τ sig (Elt F))), op.fresh = ∅ := by
  intro _ h; (repeat (cases h with | head => rfl | tail _ h => ?_)); exact nomatch h
theorem writesSumPPP : (opsSumPPP : List (HloOp τ sig (Elt F))).Forall fun op => op.writes ⊆ (wrSumPPP.map (Proc.devRef (τ := τ) .tc)).toFinset := by
  simp only [List.Forall]
  exact ⟨(by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide))⟩
/-- A buffer they do not write keeps its contents. -/
theorem keepSumPPP (W : Valuation τ sig (Elt F)) (r : Ref sig .tc) (h : r ∉ wrSumPPP) :
    after opsSumPPP W (Proc.devRef .tc r) = W (Proc.devRef .tc r) :=
  after_of_writes_sub opsSumPPP _ writesSumPPP h

/-- The half-sum a + h − v − d. -/
abbrev opsSumPMM : List (HloOp τ sig (Elt F)) :=
  [ binary main_v2 main_v4 main_v14 (addf : (⟨S16x3x512x512, .f32⟩ : BufTy).Contents (Elt F) → (⟨S16x3x512x512, .f32⟩ : BufTy).Contents (Elt F) → (⟨S16x3x512x512, .f32⟩ : BufTy).Contents (Elt F)),
    binary main_v14 main_v6 main_v15 (subf : (⟨S16x3x512x512, .f32⟩ : BufTy).Contents (Elt F) → (⟨S16x3x512x512, .f32⟩ : BufTy).Contents (Elt F) → (⟨S16x3x512x512, .f32⟩ : BufTy).Contents (Elt F)),
    binary main_v15 main_v8 main_v16 (subf : (⟨S16x3x512x512, .f32⟩ : BufTy).Contents (Elt F) → (⟨S16x3x512x512, .f32⟩ : BufTy).Contents (Elt F) → (⟨S16x3x512x512, .f32⟩ : BufTy).Contents (Elt F)),
    nullary main_cst_0 (constant S_ .f32 0x3F000000#32),
    unary main_cst_0 main_v17 (broadcastInDim S16x3x512x512 ![] bcast_S_S16x3x512x512 : (⟨S_, .f32⟩ : BufTy).Contents (Elt F) → (⟨S16x3x512x512, .f32⟩ : BufTy).Contents (Elt F)),
    binary main_v16 main_v17 main_v18 (mulf : (⟨S16x3x512x512, .f32⟩ : BufTy).Contents (Elt F) → (⟨S16x3x512x512, .f32⟩ : BufTy).Contents (Elt F) → (⟨S16x3x512x512, .f32⟩ : BufTy).Contents (Elt F)) ]
/-- The buffers these operations write. -/
abbrev wrSumPMM : List (Ref sig .tc) := [main_v14, main_v15, main_v16, main_cst_0, main_v17, main_v18]
theorem subSumPMM : (opsSumPMM : List (HloOp τ sig (Elt F))).Forall fun op => op.bufs ⊆ tcRefs τ sig :=
  ⟨binary_bufs_sub .., binary_bufs_sub .., binary_bufs_sub .., nullary_bufs_sub .., unary_bufs_sub .., binary_bufs_sub ..⟩
theorem freshSumPMM : ∀ op ∈ (opsSumPMM : List (HloOp τ sig (Elt F))), op.fresh = ∅ := by
  intro _ h; (repeat (cases h with | head => rfl | tail _ h => ?_)); exact nomatch h
theorem writesSumPMM : (opsSumPMM : List (HloOp τ sig (Elt F))).Forall fun op => op.writes ⊆ (wrSumPMM.map (Proc.devRef (τ := τ) .tc)).toFinset := by
  simp only [List.Forall]
  exact ⟨(by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide))⟩
/-- A buffer they do not write keeps its contents. -/
theorem keepSumPMM (W : Valuation τ sig (Elt F)) (r : Ref sig .tc) (h : r ∉ wrSumPMM) :
    after opsSumPMM W (Proc.devRef .tc r) = W (Proc.devRef .tc r) :=
  after_of_writes_sub opsSumPMM _ writesSumPMM h

/-- The half-sum a − h + v − d. -/
abbrev opsSumMPM : List (HloOp τ sig (Elt F)) :=
  [ binary main_v2 main_v4 main_v19 (subf : (⟨S16x3x512x512, .f32⟩ : BufTy).Contents (Elt F) → (⟨S16x3x512x512, .f32⟩ : BufTy).Contents (Elt F) → (⟨S16x3x512x512, .f32⟩ : BufTy).Contents (Elt F)),
    binary main_v19 main_v6 main_v20 (addf : (⟨S16x3x512x512, .f32⟩ : BufTy).Contents (Elt F) → (⟨S16x3x512x512, .f32⟩ : BufTy).Contents (Elt F) → (⟨S16x3x512x512, .f32⟩ : BufTy).Contents (Elt F)),
    binary main_v20 main_v8 main_v21 (subf : (⟨S16x3x512x512, .f32⟩ : BufTy).Contents (Elt F) → (⟨S16x3x512x512, .f32⟩ : BufTy).Contents (Elt F) → (⟨S16x3x512x512, .f32⟩ : BufTy).Contents (Elt F)),
    nullary main_cst_1 (constant S_ .f32 0x3F000000#32),
    unary main_cst_1 main_v22 (broadcastInDim S16x3x512x512 ![] bcast_S_S16x3x512x512 : (⟨S_, .f32⟩ : BufTy).Contents (Elt F) → (⟨S16x3x512x512, .f32⟩ : BufTy).Contents (Elt F)),
    binary main_v21 main_v22 main_v23 (mulf : (⟨S16x3x512x512, .f32⟩ : BufTy).Contents (Elt F) → (⟨S16x3x512x512, .f32⟩ : BufTy).Contents (Elt F) → (⟨S16x3x512x512, .f32⟩ : BufTy).Contents (Elt F)) ]
/-- The buffers these operations write. -/
abbrev wrSumMPM : List (Ref sig .tc) := [main_v19, main_v20, main_v21, main_cst_1, main_v22, main_v23]
theorem subSumMPM : (opsSumMPM : List (HloOp τ sig (Elt F))).Forall fun op => op.bufs ⊆ tcRefs τ sig :=
  ⟨binary_bufs_sub .., binary_bufs_sub .., binary_bufs_sub .., nullary_bufs_sub .., unary_bufs_sub .., binary_bufs_sub ..⟩
theorem freshSumMPM : ∀ op ∈ (opsSumMPM : List (HloOp τ sig (Elt F))), op.fresh = ∅ := by
  intro _ h; (repeat (cases h with | head => rfl | tail _ h => ?_)); exact nomatch h
theorem writesSumMPM : (opsSumMPM : List (HloOp τ sig (Elt F))).Forall fun op => op.writes ⊆ (wrSumMPM.map (Proc.devRef (τ := τ) .tc)).toFinset := by
  simp only [List.Forall]
  exact ⟨(by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide))⟩
/-- A buffer they do not write keeps its contents. -/
theorem keepSumMPM (W : Valuation τ sig (Elt F)) (r : Ref sig .tc) (h : r ∉ wrSumMPM) :
    after opsSumMPM W (Proc.devRef .tc r) = W (Proc.devRef .tc r) :=
  after_of_writes_sub opsSumMPM _ writesSumMPM h

/-- The half-sum a − h − v + d. -/
abbrev opsSumMMP : List (HloOp τ sig (Elt F)) :=
  [ binary main_v2 main_v4 main_v24 (subf : (⟨S16x3x512x512, .f32⟩ : BufTy).Contents (Elt F) → (⟨S16x3x512x512, .f32⟩ : BufTy).Contents (Elt F) → (⟨S16x3x512x512, .f32⟩ : BufTy).Contents (Elt F)),
    binary main_v24 main_v6 main_v25 (subf : (⟨S16x3x512x512, .f32⟩ : BufTy).Contents (Elt F) → (⟨S16x3x512x512, .f32⟩ : BufTy).Contents (Elt F) → (⟨S16x3x512x512, .f32⟩ : BufTy).Contents (Elt F)),
    binary main_v25 main_v8 main_v26 (addf : (⟨S16x3x512x512, .f32⟩ : BufTy).Contents (Elt F) → (⟨S16x3x512x512, .f32⟩ : BufTy).Contents (Elt F) → (⟨S16x3x512x512, .f32⟩ : BufTy).Contents (Elt F)),
    nullary main_cst_2 (constant S_ .f32 0x3F000000#32),
    unary main_cst_2 main_v27 (broadcastInDim S16x3x512x512 ![] bcast_S_S16x3x512x512 : (⟨S_, .f32⟩ : BufTy).Contents (Elt F) → (⟨S16x3x512x512, .f32⟩ : BufTy).Contents (Elt F)),
    binary main_v26 main_v27 main_v28 (mulf : (⟨S16x3x512x512, .f32⟩ : BufTy).Contents (Elt F) → (⟨S16x3x512x512, .f32⟩ : BufTy).Contents (Elt F) → (⟨S16x3x512x512, .f32⟩ : BufTy).Contents (Elt F)) ]
/-- The buffers these operations write. -/
abbrev wrSumMMP : List (Ref sig .tc) := [main_v24, main_v25, main_v26, main_cst_2, main_v27, main_v28]
theorem subSumMMP : (opsSumMMP : List (HloOp τ sig (Elt F))).Forall fun op => op.bufs ⊆ tcRefs τ sig :=
  ⟨binary_bufs_sub .., binary_bufs_sub .., binary_bufs_sub .., nullary_bufs_sub .., unary_bufs_sub .., binary_bufs_sub ..⟩
theorem freshSumMMP : ∀ op ∈ (opsSumMMP : List (HloOp τ sig (Elt F))), op.fresh = ∅ := by
  intro _ h; (repeat (cases h with | head => rfl | tail _ h => ?_)); exact nomatch h
theorem writesSumMMP : (opsSumMMP : List (HloOp τ sig (Elt F))).Forall fun op => op.writes ⊆ (wrSumMMP.map (Proc.devRef (τ := τ) .tc)).toFinset := by
  simp only [List.Forall]
  exact ⟨(by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide))⟩
/-- A buffer they do not write keeps its contents. -/
theorem keepSumMMP (W : Valuation τ sig (Elt F)) (r : Ref sig .tc) (h : r ∉ wrSumMMP) :
    after opsSumMMP W (Proc.devRef .tc r) = W (Proc.devRef .tc r) :=
  after_of_writes_sub opsSumMMP _ writesSumMMP h

/-- The first two half-sums interleaved along the last axis. -/
abbrev opsLanesEven : List (HloOp τ sig (Elt F)) :=
  [ unary main_v13 main_v29 (broadcastInDim S16x3x512x512x1 ![0, 1, 2, 3] bcast_S16x3x512x512_S16x3x512x512x1_0_1_2_3 : (⟨S16x3x512x512, .f32⟩ : BufTy).Contents (Elt F) → (⟨S16x3x512x512x1, .f32⟩ : BufTy).Contents (Elt F)),
    unary main_v18 main_v30 (broadcastInDim S16x3x512x512x1 ![0, 1, 2, 3] bcast_S16x3x512x512_S16x3x512x512x1_0_1_2_3 : (⟨S16x3x512x512, .f32⟩ : BufTy).Contents (Elt F) → (⟨S16x3x512x512x1, .f32⟩ : BufTy).Contents (Elt F)),
    binary main_v29 main_v30 main_v31 ((fun a b => concatenate S16x3x512x512x2 4 [⟨S16x3x512x512x1, a⟩, ⟨S16x3x512x512x1, b⟩] concatenates_S16x3x512x512x1_S16x3x512x512x1_S16x3x512x512x2_d4) : (⟨S16x3x512x512x1, .f32⟩ : BufTy).Contents (Elt F) → (⟨S16x3x512x512x1, .f32⟩ : BufTy).Contents (Elt F) → (⟨S16x3x512x512x2, .f32⟩ : BufTy).Contents (Elt F)),
    reshape main_v31 main_v32 rfl shapeCasts_S16x3x512x512x2_S16x3x512x1024 ]
/-- The buffers these operations write. -/
abbrev wrLanesEven : List (Ref sig .tc) := [main_v29, main_v30, main_v31, main_v32]
theorem subLanesEven : (opsLanesEven : List (HloOp τ sig (Elt F))).Forall fun op => op.bufs ⊆ tcRefs τ sig :=
  ⟨unary_bufs_sub .., unary_bufs_sub .., binary_bufs_sub .., reshape_bufs_sub ..⟩
theorem freshLanesEven : ∀ op ∈ (opsLanesEven : List (HloOp τ sig (Elt F))), op.fresh = ∅ := by
  intro _ h; (repeat (cases h with | head => rfl | tail _ h => ?_)); exact nomatch h
theorem writesLanesEven : (opsLanesEven : List (HloOp τ sig (Elt F))).Forall fun op => op.writes ⊆ (wrLanesEven.map (Proc.devRef (τ := τ) .tc)).toFinset := by
  simp only [List.Forall]
  exact ⟨(by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide))⟩
/-- A buffer they do not write keeps its contents. -/
theorem keepLanesEven (W : Valuation τ sig (Elt F)) (r : Ref sig .tc) (h : r ∉ wrLanesEven) :
    after opsLanesEven W (Proc.devRef .tc r) = W (Proc.devRef .tc r) :=
  after_of_writes_sub opsLanesEven _ writesLanesEven h

/-- The last two half-sums interleaved along the last axis. -/
abbrev opsLanesOdd : List (HloOp τ sig (Elt F)) :=
  [ unary main_v23 main_v33 (broadcastInDim S16x3x512x512x1 ![0, 1, 2, 3] bcast_S16x3x512x512_S16x3x512x512x1_0_1_2_3 : (⟨S16x3x512x512, .f32⟩ : BufTy).Contents (Elt F) → (⟨S16x3x512x512x1, .f32⟩ : BufTy).Contents (Elt F)),
    unary main_v28 main_v34 (broadcastInDim S16x3x512x512x1 ![0, 1, 2, 3] bcast_S16x3x512x512_S16x3x512x512x1_0_1_2_3 : (⟨S16x3x512x512, .f32⟩ : BufTy).Contents (Elt F) → (⟨S16x3x512x512x1, .f32⟩ : BufTy).Contents (Elt F)),
    binary main_v33 main_v34 main_v35 ((fun a b => concatenate S16x3x512x512x2 4 [⟨S16x3x512x512x1, a⟩, ⟨S16x3x512x512x1, b⟩] concatenates_S16x3x512x512x1_S16x3x512x512x1_S16x3x512x512x2_d4) : (⟨S16x3x512x512x1, .f32⟩ : BufTy).Contents (Elt F) → (⟨S16x3x512x512x1, .f32⟩ : BufTy).Contents (Elt F) → (⟨S16x3x512x512x2, .f32⟩ : BufTy).Contents (Elt F)),
    reshape main_v35 main_v36 rfl shapeCasts_S16x3x512x512x2_S16x3x512x1024 ]
/-- The buffers these operations write. -/
abbrev wrLanesOdd : List (Ref sig .tc) := [main_v33, main_v34, main_v35, main_v36]
theorem subLanesOdd : (opsLanesOdd : List (HloOp τ sig (Elt F))).Forall fun op => op.bufs ⊆ tcRefs τ sig :=
  ⟨unary_bufs_sub .., unary_bufs_sub .., binary_bufs_sub .., reshape_bufs_sub ..⟩
theorem freshLanesOdd : ∀ op ∈ (opsLanesOdd : List (HloOp τ sig (Elt F))), op.fresh = ∅ := by
  intro _ h; (repeat (cases h with | head => rfl | tail _ h => ?_)); exact nomatch h
theorem writesLanesOdd : (opsLanesOdd : List (HloOp τ sig (Elt F))).Forall fun op => op.writes ⊆ (wrLanesOdd.map (Proc.devRef (τ := τ) .tc)).toFinset := by
  simp only [List.Forall]
  exact ⟨(by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide))⟩
/-- A buffer they do not write keeps its contents. -/
theorem keepLanesOdd (W : Valuation τ sig (Elt F)) (r : Ref sig .tc) (h : r ∉ wrLanesOdd) :
    after opsLanesOdd W (Proc.devRef .tc r) = W (Proc.devRef .tc r) :=
  after_of_writes_sub opsLanesOdd _ writesLanesOdd h

/-- The two interleaved along the rows. -/
abbrev opsRows : List (HloOp τ sig (Elt F)) :=
  [ unary main_v32 main_v37 (broadcastInDim S16x3x512x1x1024 ![0, 1, 2, 4] bcast_S16x3x512x1024_S16x3x512x1x1024_0_1_2_4 : (⟨S16x3x512x1024, .f32⟩ : BufTy).Contents (Elt F) → (⟨S16x3x512x1x1024, .f32⟩ : BufTy).Contents (Elt F)),
    unary main_v36 main_v38 (broadcastInDim S16x3x512x1x1024 ![0, 1, 2, 4] bcast_S16x3x512x1024_S16x3x512x1x1024_0_1_2_4 : (⟨S16x3x512x1024, .f32⟩ : BufTy).Contents (Elt F) → (⟨S16x3x512x1x1024, .f32⟩ : BufTy).Contents (Elt F)),
    binary main_v37 main_v38 main_v39 ((fun a b => concatenate S16x3x512x2x1024 3 [⟨S16x3x512x1x1024, a⟩, ⟨S16x3x512x1x1024, b⟩] concatenates_S16x3x512x1x1024_S16x3x512x1x1024_S16x3x512x2x1024_d3) : (⟨S16x3x512x1x1024, .f32⟩ : BufTy).Contents (Elt F) → (⟨S16x3x512x1x1024, .f32⟩ : BufTy).Contents (Elt F) → (⟨S16x3x512x2x1024, .f32⟩ : BufTy).Contents (Elt F)),
    reshape main_v39 main_v40 rfl shapeCasts_S16x3x512x2x1024_S16x3x1024x1024 ]
/-- The buffers these operations write. -/
abbrev wrRows : List (Ref sig .tc) := [main_v37, main_v38, main_v39, main_v40]
theorem subRows : (opsRows : List (HloOp τ sig (Elt F))).Forall fun op => op.bufs ⊆ tcRefs τ sig :=
  ⟨unary_bufs_sub .., unary_bufs_sub .., binary_bufs_sub .., reshape_bufs_sub ..⟩
theorem freshRows : ∀ op ∈ (opsRows : List (HloOp τ sig (Elt F))), op.fresh = ∅ := by
  intro _ h; (repeat (cases h with | head => rfl | tail _ h => ?_)); exact nomatch h
theorem writesRows : (opsRows : List (HloOp τ sig (Elt F))).Forall fun op => op.writes ⊆ (wrRows.map (Proc.devRef (τ := τ) .tc)).toFinset := by
  simp only [List.Forall]
  exact ⟨(by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide)),
    (by simp only [nullary_writes, unary_writes, binary_writes, reshape_writes, Finset.singleton_subset_iff, List.mem_toFinset]; exact List.mem_map_of_mem (by decide))⟩
/-- A buffer they do not write keeps its contents. -/
theorem keepRows (W : Valuation τ sig (Elt F)) (r : Ref sig .tc) (h : r ∉ wrRows) :
    after opsRows W (Proc.devRef .tc r) = W (Proc.devRef .tc r) :=
  after_of_writes_sub opsRows _ writesRows h

/-- The whole line. -/
abbrev ops : List (HloOp τ sig (Elt F)) := opsPlanes ++ (opsSumPPP ++ (opsSumPMM ++ (opsSumMPM ++ (opsSumMMP ++ (opsLanesEven ++ (opsLanesOdd ++ (opsRows)))))))

set_option maxRecDepth 8192 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append subPlanes (forall_append subSumPPP (forall_append subSumPMM (forall_append subSumMPM (forall_append subSumMMP (forall_append subLanesEven (forall_append subLanesOdd (subRows)))))))

theorem ops_fresh : ∀ op ∈ (ops : List (HloOp τ sig (Elt F))), op.fresh = ∅ := fun op =>
  (fun h => (List.mem_append.mp h).elim (freshPlanes op) (fun h => (List.mem_append.mp h).elim (freshSumPPP op) (fun h => (List.mem_append.mp h).elim (freshSumPMM op) (fun h => (List.mem_append.mp h).elim (freshSumMPM op) (fun h => (List.mem_append.mp h).elim (freshSumMMP op) (fun h => (List.mem_append.mp h).elim (freshLanesEven op) (fun h => (List.mem_append.mp h).elim (freshLanesOdd op) (freshRows op))))))))

/-! ## The groups' functions -/

/-- The input regrouped: four planes per sample and channel. -/
def regrouped (x : (⟨S16x12x512x512, .f32⟩ : BufTy).Contents (Elt F)) : (⟨S16x3x4x512x512, .f32⟩ : BufTy).Contents (Elt F) :=
  shapeCast _ x shapeCasts_S16x12x512x512_S16x3x4x512x512

def planeA (z : (⟨S16x3x4x512x512, .f32⟩ : BufTy).Contents (Elt F)) : (⟨S16x3x512x512, .f32⟩ : BufTy).Contents (Elt F) :=
  shapeCast _ (extractStridedSlice S16x3x1x512x512 ![0, 0, 0, 0, 0] z slices_S16x3x4x512x512_S16x3x1x512x512_0_0_0_0_0) shapeCasts_S16x3x1x512x512_S16x3x512x512
def planeH (z : (⟨S16x3x4x512x512, .f32⟩ : BufTy).Contents (Elt F)) : (⟨S16x3x512x512, .f32⟩ : BufTy).Contents (Elt F) :=
  shapeCast _ (extractStridedSlice S16x3x1x512x512 ![0, 0, 1, 0, 0] z slices_S16x3x4x512x512_S16x3x1x512x512_0_0_1_0_0) shapeCasts_S16x3x1x512x512_S16x3x512x512
def planeV (z : (⟨S16x3x4x512x512, .f32⟩ : BufTy).Contents (Elt F)) : (⟨S16x3x512x512, .f32⟩ : BufTy).Contents (Elt F) :=
  shapeCast _ (extractStridedSlice S16x3x1x512x512 ![0, 0, 2, 0, 0] z slices_S16x3x4x512x512_S16x3x1x512x512_0_0_2_0_0) shapeCasts_S16x3x1x512x512_S16x3x512x512
def planeD (z : (⟨S16x3x4x512x512, .f32⟩ : BufTy).Contents (Elt F)) : (⟨S16x3x512x512, .f32⟩ : BufTy).Contents (Elt F) :=
  shapeCast _ (extractStridedSlice S16x3x1x512x512 ![0, 0, 3, 0, 0] z slices_S16x3x4x512x512_S16x3x1x512x512_0_0_3_0_0) shapeCasts_S16x3x1x512x512_S16x3x512x512

def sumPPP (a h v d : (⟨S16x3x512x512, .f32⟩ : BufTy).Contents (Elt F)) : (⟨S16x3x512x512, .f32⟩ : BufTy).Contents (Elt F) := mulf (addf (addf (addf a h) v) d) (broadcastInDim S16x3x512x512 ![] bcast_S_S16x3x512x512 (constant S_ .f32 0x3F000000#32))
def sumPMM (a h v d : (⟨S16x3x512x512, .f32⟩ : BufTy).Contents (Elt F)) : (⟨S16x3x512x512, .f32⟩ : BufTy).Contents (Elt F) := mulf (subf (subf (addf a h) v) d) (broadcastInDim S16x3x512x512 ![] bcast_S_S16x3x512x512 (constant S_ .f32 0x3F000000#32))
def sumMPM (a h v d : (⟨S16x3x512x512, .f32⟩ : BufTy).Contents (Elt F)) : (⟨S16x3x512x512, .f32⟩ : BufTy).Contents (Elt F) := mulf (subf (addf (subf a h) v) d) (broadcastInDim S16x3x512x512 ![] bcast_S_S16x3x512x512 (constant S_ .f32 0x3F000000#32))
def sumMMP (a h v d : (⟨S16x3x512x512, .f32⟩ : BufTy).Contents (Elt F)) : (⟨S16x3x512x512, .f32⟩ : BufTy).Contents (Elt F) := mulf (addf (subf (subf a h) v) d) (broadcastInDim S16x3x512x512 ![] bcast_S_S16x3x512x512 (constant S_ .f32 0x3F000000#32))

/-- Two arrays interleaved along the last axis. -/
def lanes (u w : (⟨S16x3x512x512, .f32⟩ : BufTy).Contents (Elt F)) : (⟨S16x3x512x1024, .f32⟩ : BufTy).Contents (Elt F) :=
  shapeCast _ (concatenate S16x3x512x512x2 4
    [⟨S16x3x512x512x1, broadcastInDim S16x3x512x512x1 ![0, 1, 2, 3] bcast_S16x3x512x512_S16x3x512x512x1_0_1_2_3 u⟩,
     ⟨S16x3x512x512x1, broadcastInDim S16x3x512x512x1 ![0, 1, 2, 3] bcast_S16x3x512x512_S16x3x512x512x1_0_1_2_3 w⟩]
    concatenates_S16x3x512x512x1_S16x3x512x512x1_S16x3x512x512x2_d4) shapeCasts_S16x3x512x512x2_S16x3x512x1024

/-- Two arrays interleaved along the rows. -/
def rows (u w : (⟨S16x3x512x1024, .f32⟩ : BufTy).Contents (Elt F)) : (⟨S16x3x1024x1024, .f32⟩ : BufTy).Contents (Elt F) :=
  shapeCast _ (concatenate S16x3x512x2x1024 3
    [⟨S16x3x512x1x1024, broadcastInDim S16x3x512x1x1024 ![0, 1, 2, 4] bcast_S16x3x512x1024_S16x3x512x1x1024_0_1_2_4 u⟩,
     ⟨S16x3x512x1x1024, broadcastInDim S16x3x512x1x1024 ![0, 1, 2, 4] bcast_S16x3x512x1024_S16x3x512x1x1024_0_1_2_4 w⟩]
    concatenates_S16x3x512x1x1024_S16x3x512x1x1024_S16x3x512x2x1024_d3) shapeCasts_S16x3x512x2x1024_S16x3x1024x1024

/-- The whole line as one function of the input. -/
def result (x : (⟨S16x12x512x512, .f32⟩ : BufTy).Contents (Elt F)) : (⟨S16x3x1024x1024, .f32⟩ : BufTy).Contents (Elt F) :=
  rows
    (lanes (sumPPP (planeA (regrouped x)) (planeH (regrouped x)) (planeV (regrouped x)) (planeD (regrouped x)))
           (sumPMM (planeA (regrouped x)) (planeH (regrouped x)) (planeV (regrouped x)) (planeD (regrouped x))))
    (lanes (sumMPM (planeA (regrouped x)) (planeH (regrouped x)) (planeV (regrouped x)) (planeD (regrouped x)))
           (sumMMP (planeA (regrouped x)) (planeH (regrouped x)) (planeV (regrouped x)) (planeD (regrouped x))))

/-! ## What each group leaves in the buffers it writes, from any memory -/

theorem stagePlanes (W : Valuation τ sig (Elt F)) :
    after opsPlanes W (Proc.devRef .tc main_v2) = planeA (regrouped (W (Proc.devRef .tc main_arg0)))
    ∧ after opsPlanes W (Proc.devRef .tc main_v4) = planeH (regrouped (W (Proc.devRef .tc main_arg0)))
    ∧ after opsPlanes W (Proc.devRef .tc main_v6) = planeV (regrouped (W (Proc.devRef .tc main_arg0)))
    ∧ after opsPlanes W (Proc.devRef .tc main_v8) = planeD (regrouped (W (Proc.devRef .tc main_arg0))) := by
  refine ⟨?_, ?_, ?_, ?_⟩ <;> (after_results; rfl)

theorem stageSumPPP (W : Valuation τ sig (Elt F)) :
    after opsSumPPP W (Proc.devRef .tc main_v13) = sumPPP (W (Proc.devRef .tc main_v2)) (W (Proc.devRef .tc main_v4)) (W (Proc.devRef .tc main_v6)) (W (Proc.devRef .tc main_v8)) := by
  after_results; rfl
theorem stageSumPMM (W : Valuation τ sig (Elt F)) :
    after opsSumPMM W (Proc.devRef .tc main_v18) = sumPMM (W (Proc.devRef .tc main_v2)) (W (Proc.devRef .tc main_v4)) (W (Proc.devRef .tc main_v6)) (W (Proc.devRef .tc main_v8)) := by
  after_results; rfl
theorem stageSumMPM (W : Valuation τ sig (Elt F)) :
    after opsSumMPM W (Proc.devRef .tc main_v23) = sumMPM (W (Proc.devRef .tc main_v2)) (W (Proc.devRef .tc main_v4)) (W (Proc.devRef .tc main_v6)) (W (Proc.devRef .tc main_v8)) := by
  after_results; rfl
theorem stageSumMMP (W : Valuation τ sig (Elt F)) :
    after opsSumMMP W (Proc.devRef .tc main_v28) = sumMMP (W (Proc.devRef .tc main_v2)) (W (Proc.devRef .tc main_v4)) (W (Proc.devRef .tc main_v6)) (W (Proc.devRef .tc main_v8)) := by
  after_results; rfl

theorem stageLanesEven (W : Valuation τ sig (Elt F)) :
    after opsLanesEven W (Proc.devRef .tc main_v32) = lanes (W (Proc.devRef .tc main_v13)) (W (Proc.devRef .tc main_v18)) := by
  after_results; rfl
theorem stageLanesOdd (W : Valuation τ sig (Elt F)) :
    after opsLanesOdd W (Proc.devRef .tc main_v36) = lanes (W (Proc.devRef .tc main_v23)) (W (Proc.devRef .tc main_v28)) := by
  after_results; rfl

theorem stageRows (W : Valuation τ sig (Elt F)) :
    after opsRows W (Proc.devRef .tc main_v40) = rows (W (Proc.devRef .tc main_v32)) (W (Proc.devRef .tc main_v36)) := by
  after_results; rfl

/-! ## The whole line -/

/-- The result buffer after the line: each group's function of what the groups before left, those buffers carried
    unchanged through the groups in between. -/
theorem result_after (W : Valuation τ sig (Elt F)) :
    after ops W (Proc.devRef .tc main_v40) = result (W (Proc.devRef .tc main_arg0)) := by
  show after (opsPlanes ++ (opsSumPPP ++ (opsSumPMM ++ (opsSumMPM ++ (opsSumMMP ++ (opsLanesEven ++ (opsLanesOdd ++ (opsRows)))))))) W _ = _
  rw [after_append, after_append, after_append, after_append, after_append, after_append, after_append]
  rw [stageRows, stageLanesOdd, keepLanesOdd _ main_v32 (by decide), stageLanesEven, keepLanesEven _ main_v23 (by decide), keepLanesEven _ main_v28 (by decide)]
  rw [stageSumMMP, keepSumMMP _ main_v13 (by decide), keepSumMMP _ main_v18 (by decide), keepSumMMP _ main_v23 (by decide)]
  rw [stageSumMPM, keepSumMPM _ main_v13 (by decide), keepSumMPM _ main_v18 (by decide), keepSumMPM _ main_v2 (by decide), keepSumMPM _ main_v4 (by decide), keepSumMPM _ main_v6 (by decide), keepSumMPM _ main_v8 (by decide)]
  rw [stageSumPMM, keepSumPMM _ main_v13 (by decide), keepSumPMM _ main_v2 (by decide), keepSumPMM _ main_v4 (by decide), keepSumPMM _ main_v6 (by decide), keepSumPMM _ main_v8 (by decide)]
  rw [stageSumPPP, keepSumPPP _ main_v2 (by decide), keepSumPPP _ main_v4 (by decide), keepSumPPP _ main_v6 (by decide), keepSumPPP _ main_v8 (by decide)]
  rw [(stagePlanes W).1, (stagePlanes W).2.1, (stagePlanes W).2.2.1, (stagePlanes W).2.2.2]
  rfl

/-- No operation writes the input buffer. -/
theorem arg_after (W : Valuation τ sig (Elt F)) :
    after ops W (Proc.devRef .tc main_arg0) = W (Proc.devRef .tc main_arg0) := by
  show after (opsPlanes ++ (opsSumPPP ++ (opsSumPMM ++ (opsSumMPM ++ (opsSumMMP ++ (opsLanesEven ++ (opsLanesOdd ++ (opsRows)))))))) W _ = _
  rw [after_append, after_append, after_append, after_append, after_append, after_append, after_append]
  rw [keepRows _ main_arg0 (by decide), keepLanesOdd _ main_arg0 (by decide), keepLanesEven _ main_arg0 (by decide), keepSumMMP _ main_arg0 (by decide), keepSumMPM _ main_arg0 (by decide), keepSumPMM _ main_arg0 (by decide), keepSumPPP _ main_arg0 (by decide), keepPlanes _ main_arg0 (by decide)]

/-! ## The run -/

/-- From any memory with zero counters every weakly fair execution of the reference terminates, with the result buffer
    at the composed functions of the input buffer and the input buffer unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40) = result (m ((c.tc : Thread nD τ).loc main_arg0))
      ∧ r.2.mem ((c.tc : Thread nD τ).loc main_arg0) = m ((c.tc : Thread nD τ).loc main_arg0) :=
  (θ_run defs _ _).mono
    (fun _ h c => ⟨(h c main_v40).trans (result_after (launchContents m c)), (h c main_arg0).trans (arg_after (launchContents m c))⟩)
    (run_seq scopedRefs_eq scopedSems_eq defs main (fun _ => ops) main_eq (fun _ => ops_sub) m ρ (fun _ => ops_fresh))

end Cert.Haar.RefRun

end
-- ==== Proof.LibInterleaveBatch.lean ====
/-
  The same interleavings as in LibInterleave, for a batch: arrays with two leading axes of extents 16 and 3, the unit
  axes inserted by broadcast_in_dim (the host's way) instead of a shape cast.

  * along the last axis: two [16, 3, 512, 512] arrays u, w, each broadcast to [16, 3, 512, 512, 1], joined on the
    unit axis and flattened to [16, 3, 512, 1024]: entry (b, c, i, s) is u (b, c, i, s / 2) for even s and
    w (b, c, i, s / 2) for odd s (lanes_apply);
  * along the rows: two [16, 3, 512, 1024] arrays u, w, each broadcast to [16, 3, 512, 1, 1024], joined on the unit
    axis and flattened to [16, 3, 1024, 1024]: entry (b, c, r, s) is u (b, c, r / 2, s) for even r and
    w (b, c, r / 2, s) for odd r (rows_apply);
  * plane k of a [16, 3, 4, 512, 512] array, sliced out as [16, 3, 1, 512, 512] and reshaped to [16, 3, 512, 512],
    reads the array at (b, c, k, i, j) (plane_apply);
  * the [16, 12, 512, 512] array regrouped as [16, 3, 4, 512, 512] reads channel 4 c + k at (b, c, k, i, j)
    (regroup_apply).

  The element type is arbitrary.
-/
import Idealize.ShloMosaic.Lib.Pipeline.Value
import Idealize.ShloMosaic.Lib.ValueIdx
import proofs.«112358_j36739150250539_1_alg».proof.Proof.LibInterleave

namespace Cert.InterleaveBatch

open Idealize.ShloMosaic Idealize.ShloMosaic.ValueIdx Cert.Interleave

variable {α : Type}

/-- A [16, 3, 512, 512] array with a trailing unit axis added by broadcast keeps its entries. -/
theorem trailing_unit_apply (v : (⟨4, ![16, 3, 512, 512]⟩ : Shape).Idx → α)
    (hb : (⟨4, ![16, 3, 512, 512]⟩ : Shape).BroadcastsInDim ⟨5, ![16, 3, 512, 512, 1]⟩ (![0, 1, 2, 3] : Fin 4 → Fin 5))
    (b : Fin 16) (c : Fin 3) (i j : Fin 512) (z : Fin 1) :
    broadcastInDim ⟨5, ![16, 3, 512, 512, 1]⟩ (![0, 1, 2, 3] : Fin 4 → Fin 5) hb v (ix5 b c i j z) = v (ix4 b c i j) :=
  broadcastInDim_apply _ hb v _ _ (fun a => match a with
    | ⟨0, _⟩ => by show b.val = if (16 : Nat) = 1 then 0 else b.val; rw [if_neg (by decide)]
    | ⟨1, _⟩ => by show c.val = if (3 : Nat) = 1 then 0 else c.val; rw [if_neg (by decide)]
    | ⟨2, _⟩ => by show i.val = if (512 : Nat) = 1 then 0 else i.val; rw [if_neg (by decide)]
    | ⟨3, _⟩ => by show j.val = if (512 : Nat) = 1 then 0 else j.val; rw [if_neg (by decide)])

/-- A [16, 3, 512, 1024] array with a unit axis added before the last one by broadcast keeps its entries. -/
theorem inner_unit_apply (v : (⟨4, ![16, 3, 512, 1024]⟩ : Shape).Idx → α)
    (hb : (⟨4, ![16, 3, 512, 1024]⟩ : Shape).BroadcastsInDim ⟨5, ![16, 3, 512, 1, 1024]⟩ (![0, 1, 2, 4] : Fin 4 → Fin 5))
    (b : Fin 16) (c : Fin 3) (i : Fin 512) (z : Fin 1) (s : Fin 1024) :
    broadcastInDim ⟨5, ![16, 3, 512, 1, 1024]⟩ (![0, 1, 2, 4] : Fin 4 → Fin 5) hb v (ix5 b c i z s) = v (ix4 b c i s) :=
  broadcastInDim_apply _ hb v _ _ (fun a => match a with
    | ⟨0, _⟩ => by show b.val = if (16 : Nat) = 1 then 0 else b.val; rw [if_neg (by decide)]
    | ⟨1, _⟩ => by show c.val = if (3 : Nat) = 1 then 0 else c.val; rw [if_neg (by decide)]
    | ⟨2, _⟩ => by show i.val = if (512 : Nat) = 1 then 0 else i.val; rw [if_neg (by decide)]
    | ⟨3, _⟩ => by show s.val = if (1024 : Nat) = 1 then 0 else s.val; rw [if_neg (by decide)])

/-- Two [16, 3, 512, 512] arrays interleaved along the last axis: even columns from the first, odd from the second. -/
theorem lanes_apply (u w : (⟨4, ![16, 3, 512, 512]⟩ : Shape).Idx → α)
    (hb : (⟨4, ![16, 3, 512, 512]⟩ : Shape).BroadcastsInDim ⟨5, ![16, 3, 512, 512, 1]⟩ (![0, 1, 2, 3] : Fin 4 → Fin 5))
    (hc : Shape.Concatenates [(⟨5, ![16, 3, 512, 512, 1]⟩ : Shape), ⟨5, ![16, 3, 512, 512, 1]⟩] ⟨5, ![16, 3, 512, 512, 2]⟩ 4)
    (h2 : (⟨5, ![16, 3, 512, 512, 2]⟩ : Shape).ShapeCasts ⟨4, ![16, 3, 512, 1024]⟩)
    (b : Fin 16) (c : Fin 3) (i : Fin 512) (s : Fin 1024) :
    shapeCast ⟨4, ![16, 3, 512, 1024]⟩
        (concatenate ⟨5, ![16, 3, 512, 512, 2]⟩ 4
          [⟨⟨5, ![16, 3, 512, 512, 1]⟩, broadcastInDim ⟨5, ![16, 3, 512, 512, 1]⟩ (![0, 1, 2, 3] : Fin 4 → Fin 5) hb u⟩,
           ⟨⟨5, ![16, 3, 512, 512, 1]⟩, broadcastInDim ⟨5, ![16, 3, 512, 512, 1]⟩ (![0, 1, 2, 3] : Fin 4 → Fin 5) hb w⟩] hc)
        h2 (ix4 b c i s)
      = if s.val % 2 = 0 then u (ix4 b c i (halfOf s)) else w (ix4 b c i (halfOf s)) := by
  have hb' := b.isLt
  have hc' := c.isLt
  have hi := i.isLt
  have hs := s.isLt
  refine (shapeCast_apply _ h2 (ix4 b c i s) (ix5 b c i (halfOf s) (⟨s.val % 2, by omega⟩ : Fin 2)) ?_).trans ?_
  · rw [Shape.rowMajor_val_five, Shape.rowMajor_val_four]
    show (((b.val * 3 + c.val) * 512 + i.val) * 512 + s.val / 2) * 2 + s.val % 2 = ((b.val * 3 + c.val) * 512 + i.val) * 1024 + s.val
    omega
  by_cases hp : s.val % 2 = 0
  · rw [if_pos hp]
    refine (concatenate_pair_apply_left (t := ⟨5, ![16, 3, 512, 512, 2]⟩) (4 : Fin 5) _ _ hc _ rfl
      (ix5 b c i (halfOf s) (0 : Fin 1)) ?_).trans (trailing_unit_apply u hb b c i (halfOf s) 0)
    intro a
    match a with
    | ⟨0, _⟩ => rfl
    | ⟨1, _⟩ => rfl
    | ⟨2, _⟩ => rfl
    | ⟨3, _⟩ => rfl
    | ⟨4, _⟩ => show 0 = s.val % 2; omega
  · rw [if_neg hp]
    refine (concatenate_pair_apply_right (t := ⟨5, ![16, 3, 512, 512, 2]⟩) (4 : Fin 5) _ _ hc _ rfl rfl
      (ix5 b c i (halfOf s) (0 : Fin 1)) ?_ ?_).trans (trailing_unit_apply w hb b c i (halfOf s) 0)
    · intro a ha
      match a, ha with
      | ⟨0, _⟩, _ => rfl
      | ⟨1, _⟩, _ => rfl
      | ⟨2, _⟩, _ => rfl
      | ⟨3, _⟩, _ => rfl
      | ⟨4, _⟩, ha => exact absurd (Fin.ext rfl) ha
    · show 0 + 1 = s.val % 2
      omega

/-- Two [16, 3, 512, 1024] arrays interleaved along the rows: even rows from the first, odd from the second. -/
theorem rows_apply (u w : (⟨4, ![16, 3, 512, 1024]⟩ : Shape).Idx → α)
    (hb : (⟨4, ![16, 3, 512, 1024]⟩ : Shape).BroadcastsInDim ⟨5, ![16, 3, 512, 1, 1024]⟩ (![0, 1, 2, 4] : Fin 4 → Fin 5))
    (hc : Shape.Concatenates [(⟨5, ![16, 3, 512, 1, 1024]⟩ : Shape), ⟨5, ![16, 3, 512, 1, 1024]⟩] ⟨5, ![16, 3, 512, 2, 1024]⟩ 3)
    (h2 : (⟨5, ![16, 3, 512, 2, 1024]⟩ : Shape).ShapeCasts ⟨4, ![16, 3, 1024, 1024]⟩)
    (b : Fin 16) (c : Fin 3) (r s : Fin 1024) :
    shapeCast ⟨4, ![16, 3, 1024, 1024]⟩
        (concatenate ⟨5, ![16, 3, 512, 2, 1024]⟩ 3
          [⟨⟨5, ![16, 3, 512, 1, 1024]⟩, broadcastInDim ⟨5, ![16, 3, 512, 1, 1024]⟩ (![0, 1, 2, 4] : Fin 4 → Fin 5) hb u⟩,
           ⟨⟨5, ![16, 3, 512, 1, 1024]⟩, broadcastInDim ⟨5, ![16, 3, 512, 1, 1024]⟩ (![0, 1, 2, 4] : Fin 4 → Fin 5) hb w⟩] hc)
        h2 (ix4 b c r s)
      = if r.val % 2 = 0 then u (ix4 b c (halfOf r) s) else w (ix4 b c (halfOf r) s) := by
  have hb' := b.isLt
  have hc' := c.isLt
  have hr := r.isLt
  have hs := s.isLt
  refine (shapeCast_apply _ h2 (ix4 b c r s) (ix5 b c (halfOf r) (⟨r.val % 2, by omega⟩ : Fin 2) s) ?_).trans ?_
  · rw [Shape.rowMajor_val_five, Shape.rowMajor_val_four]
    show (((b.val * 3 + c.val) * 512 + r.val / 2) * 2 + r.val % 2) * 1024 + s.val = ((b.val * 3 + c.val) * 1024 + r.val) * 1024 + s.val
    omega
  by_cases hp : r.val % 2 = 0
  · rw [if_pos hp]
    refine (concatenate_pair_apply_left (t := ⟨5, ![16, 3, 512, 2, 1024]⟩) (3 : Fin 5) _ _ hc _ rfl
      (ix5 b c (halfOf r) (0 : Fin 1) s) ?_).trans (inner_unit_apply u hb b c (halfOf r) 0 s)
    intro a
    match a with
    | ⟨0, _⟩ => rfl
    | ⟨1, _⟩ => rfl
    | ⟨2, _⟩ => rfl
    | ⟨3, _⟩ => show 0 = r.val % 2; omega
    | ⟨4, _⟩ => rfl
  · rw [if_neg hp]
    refine (concatenate_pair_apply_right (t := ⟨5, ![16, 3, 512, 2, 1024]⟩) (3 : Fin 5) _ _ hc _ rfl rfl
      (ix5 b c (halfOf r) (0 : Fin 1) s) ?_ ?_).trans (inner_unit_apply w hb b c (halfOf r) 0 s)
    · intro a ha
      match a, ha with
      | ⟨0, _⟩, _ => rfl
      | ⟨1, _⟩, _ => rfl
      | ⟨2, _⟩, _ => rfl
      | ⟨3, _⟩, ha => exact absurd (Fin.ext rfl) ha
      | ⟨4, _⟩, _ => rfl
    · show 0 + 1 = r.val % 2
      omega

/-- Plane k of a [16, 3, 4, 512, 512] array, sliced out and reshaped to [16, 3, 512, 512]. -/
theorem plane_apply (z : (⟨5, ![16, 3, 4, 512, 512]⟩ : Shape).Idx → α) (k : Fin 4)
    (hs : (⟨5, ![16, 3, 4, 512, 512]⟩ : Shape).Slices ![0, 0, k.val, 0, 0] ⟨5, ![16, 3, 1, 512, 512]⟩)
    (h : (⟨5, ![16, 3, 1, 512, 512]⟩ : Shape).ShapeCasts ⟨4, ![16, 3, 512, 512]⟩)
    (b : Fin 16) (c : Fin 3) (i j : Fin 512) :
    shapeCast ⟨4, ![16, 3, 512, 512]⟩ (extractStridedSlice ⟨5, ![16, 3, 1, 512, 512]⟩ ![0, 0, k.val, 0, 0] z hs) h (ix4 b c i j)
      = z (ix5 b c k i j) := by
  refine (shapeCast_apply _ h (ix4 b c i j) (ix5 b c (0 : Fin 1) i j) ?_).trans ?_
  · rw [Shape.rowMajor_val_five, Shape.rowMajor_val_four]
    show (((b.val * 3 + c.val) * 1 + 0) * 512 + i.val) * 512 + j.val = ((b.val * 3 + c.val) * 512 + i.val) * 512 + j.val
    omega
  refine extractStridedSlice_apply _ z hs _ _ (fun a => ?_)
  match a with
  | ⟨0, _⟩ => show b.val = 0 + b.val; omega
  | ⟨1, _⟩ => show c.val = 0 + c.val; omega
  | ⟨2, _⟩ => show k.val = k.val + 0; omega
  | ⟨3, _⟩ => show i.val = 0 + i.val; omega
  | ⟨4, _⟩ => show j.val = 0 + j.val; omega

/-- The [16, 12, 512, 512] array regrouped as [16, 3, 4, 512, 512]: channel 4 c + k at (b, c, k, i, j). -/
theorem regroup_apply (x : (⟨4, ![16, 12, 512, 512]⟩ : Shape).Idx → α)
    (h : (⟨4, ![16, 12, 512, 512]⟩ : Shape).ShapeCasts ⟨5, ![16, 3, 4, 512, 512]⟩)
    (b : Fin 16) (c : Fin 3) (k : Fin 4) (i j : Fin 512) :
    shapeCast ⟨5, ![16, 3, 4, 512, 512]⟩ x h (ix5 b c k i j)
      = x (ix4 b (⟨4 * c.val + k.val, by have := c.isLt; have := k.isLt; omega⟩ : Fin 12) i j) :=
  shapeCast_apply x h _ _ (by
    rw [Shape.rowMajor_val_four, Shape.rowMajor_val_five]
    show ((b.val * 12 + (4 * c.val + k.val)) * 512 + i.val) * 512 + j.val
      = (((b.val * 3 + c.val) * 4 + k.val) * 512 + i.val) * 512 + j.val
    omega)

end Cert.InterleaveBatch
-- ==== Proof.HaarRef.lean ====
/-
  The reference's result, entry by entry, is the inverse Haar step of the regrouped input.

  The run leaves the composition of four stage functions in the result buffer (HaarRefRun). Read at (b, c, r, s):
  the row interleave chooses, by the parity of r, one of the two column interleaves at (b, c, r / 2, s); that one
  chooses, by the parity of s, one of its two half-sums at (b, c, r / 2, s / 2); a half-sum is pointwise in the four
  planes; and plane k of the regrouped input z reads z at (b, c, k, ·, ·). So the entry is the cell entry of
  parities (r mod 2, s mod 2) over z's planes at (b, c, ·, r / 2, s / 2).
-/
import proofs.«112358_j36739150250539_1_alg».proof.Proof.HaarRefRun
import proofs.«112358_j36739150250539_1_alg».proof.Proof.LibInterleaveBatch
import proofs.«112358_j36739150250539_1_alg».proof.Proof.HaarSpec

noncomputable section

namespace Cert.Haar.Ref

open Cert.ReferenceIdeal Cert.ReferenceIdeal.Gen Idealize.ShloMosaic Idealize.ShloMosaic.ValueIdx
open Cert.Interleave Cert.InterleaveBatch Cert.Haar Cert.Haar.RefRun

variable {F : FTy → Type} [FloatOps F]

/-! ## The stage functions at an index -/

theorem planeA_apply (z : (⟨S16x3x4x512x512, .f32⟩ : BufTy).Contents (Elt F)) (b : Fin 16) (c : Fin 3) (i j : Fin 512) :
    planeA z (ix4 b c i j) = z (ix5 b c (0 : Fin 4) i j) :=
  plane_apply z (0 : Fin 4) _ _ b c i j

theorem planeH_apply (z : (⟨S16x3x4x512x512, .f32⟩ : BufTy).Contents (Elt F)) (b : Fin 16) (c : Fin 3) (i j : Fin 512) :
    planeH z (ix4 b c i j) = z (ix5 b c (1 : Fin 4) i j) :=
  plane_apply z (1 : Fin 4) _ _ b c i j

theorem planeV_apply (z : (⟨S16x3x4x512x512, .f32⟩ : BufTy).Contents (Elt F)) (b : Fin 16) (c : Fin 3) (i j : Fin 512) :
    planeV z (ix4 b c i j) = z (ix5 b c (2 : Fin 4) i j) :=
  plane_apply z (2 : Fin 4) _ _ b c i j

theorem planeD_apply (z : (⟨S16x3x4x512x512, .f32⟩ : BufTy).Contents (Elt F)) (b : Fin 16) (c : Fin 3) (i j : Fin 512) :
    planeD z (ix4 b c i j) = z (ix5 b c (3 : Fin 4) i j) :=
  plane_apply z (3 : Fin 4) _ _ b c i j

theorem sumPPP_apply (a h v d : (⟨S16x3x512x512, .f32⟩ : BufTy).Contents (Elt F)) (y : S16x3x512x512.Idx) :
    sumPPP a h v d y = butterfly 0 0 (a y) (h y) (v y) (d y) := rfl

theorem sumPMM_apply (a h v d : (⟨S16x3x512x512, .f32⟩ : BufTy).Contents (Elt F)) (y : S16x3x512x512.Idx) :
    sumPMM a h v d y = butterfly 0 1 (a y) (h y) (v y) (d y) := rfl

theorem sumMPM_apply (a h v d : (⟨S16x3x512x512, .f32⟩ : BufTy).Contents (Elt F)) (y : S16x3x512x512.Idx) :
    sumMPM a h v d y = butterfly 1 0 (a y) (h y) (v y) (d y) := rfl

theorem sumMMP_apply (a h v d : (⟨S16x3x512x512, .f32⟩ : BufTy).Contents (Elt F)) (y : S16x3x512x512.Idx) :
    sumMMP a h v d y = butterfly 1 1 (a y) (h y) (v y) (d y) := rfl

theorem lanes_at (u w : (⟨S16x3x512x512, .f32⟩ : BufTy).Contents (Elt F)) (b : Fin 16) (c : Fin 3) (i : Fin 512) (s : Fin 1024) :
    lanes u w (ix4 b c i s) = if s.val % 2 = 0 then u (ix4 b c i (halfOf s)) else w (ix4 b c i (halfOf s)) :=
  Cert.InterleaveBatch.lanes_apply u w _ _ _ b c i s

theorem rows_at (u w : (⟨S16x3x512x1024, .f32⟩ : BufTy).Contents (Elt F)) (b : Fin 16) (c : Fin 3) (r s : Fin 1024) :
    rows u w (ix4 b c r s) = if r.val % 2 = 0 then u (ix4 b c (halfOf r) s) else w (ix4 b c (halfOf r) s) :=
  Cert.InterleaveBatch.rows_apply u w _ _ _ b c r s

/-! ## The result -/

theorem result_apply (x : (⟨S16x12x512x512, .f32⟩ : BufTy).Contents (Elt F)) (b : Fin 16) (c : Fin 3) (r s : Fin 1024) :
    result x (ix4 b c r s) = cell (regrouped x) b c r s := by
  unfold result cell
  rw [rows_at]
  rcases parity_cases r.val with hr | hr
  · rw [if_pos hr, hr, lanes_at]
    rcases parity_cases s.val with hs | hs
    · rw [if_pos hs, hs, sumPPP_apply, planeA_apply, planeH_apply, planeV_apply, planeD_apply]
    · rw [if_neg (by omega), hs, sumPMM_apply, planeA_apply, planeH_apply, planeV_apply, planeD_apply]
  · rw [if_neg (by omega), hr, lanes_at]
    rcases parity_cases s.val with hs | hs
    · rw [if_pos hs, hs, sumMPM_apply, planeA_apply, planeH_apply, planeV_apply, planeD_apply]
    · rw [if_neg (by omega), hs, sumMMP_apply, planeA_apply, planeH_apply, planeV_apply, planeD_apply]

/-- The reference's result is the inverse Haar step of the regrouped input. -/
theorem result_eq (x : (⟨S16x12x512x512, .f32⟩ : BufTy).Contents (Elt F)) :
    result x = inverseHaar (regrouped x) := by
  funext j
  obtain ⟨b, c, r, s, rfl⟩ : ∃ (b : Fin 16) (c : Fin 3) (r s : Fin 1024), j = ix4 b c r s := ⟨j 0, j 1, j 2, j 3, eq_ix4 j⟩
  rw [inverseHaar_apply]
  exact result_apply x b c r s

end Cert.Haar.Ref

end
-- ==== Proof.lean ====
/-
  The certificate: a Pallas kernel for one step of the inverse two-dimensional Haar transform against its jnp
  reference, equal as extended reals.

  Both programs view the input x : [16, 12, 512, 512] as z : [16, 3, 4, 512, 512] — four coefficient planes per sample
  and channel, z (b, c, k, i, j) = x (b, 4 c + k, i, j) — by the same row-major reshape, and both produce the array
  whose entry (b, c, r, s) is the signed half-sum of z's four planes at (b, c, ·, r / 2, s / 2) that the parities of
  r and s select (HaarSpec). The kernel does it one sample and channel per grid point (HaarBody: the output block
  from the input block; HaarArray: the 48 blocks cover the result), the reference on the whole arrays (HaarRef). The
  two spell every operation the same way, in the same order, with the same constant one half, so the results are one
  term of the argument: no law of arithmetic is needed, and the precondition (finite inputs) is not used.
  The kernels' frames are the generated ones and the reference's is its run (HaarRefRun) with the result dropped;
  the idealization rewrote nothing.
-/
import proofs.«112358_j36739150250539_1_alg».proof.Defs
import proofs.«112358_j36739150250539_1_alg».proof.Proof.Gen.Kernel
import proofs.«112358_j36739150250539_1_alg».proof.Proof.Gen.Kernel.Skeleton
import proofs.«112358_j36739150250539_1_alg».proof.Proof.Gen.Kernel.Launch
import proofs.«112358_j36739150250539_1_alg».proof.Proof.Gen.Kernel.Points
import proofs.«112358_j36739150250539_1_alg».proof.Proof.Gen.Kernel.Frame
import proofs.«112358_j36739150250539_1_alg».proof.Proof.Gen.KernelIdeal
import proofs.«112358_j36739150250539_1_alg».proof.Proof.Gen.KernelIdeal.Skeleton
import proofs.«112358_j36739150250539_1_alg».proof.Proof.Gen.KernelIdeal.Launch
import proofs.«112358_j36739150250539_1_alg».proof.Proof.Gen.KernelIdeal.Points
import proofs.«112358_j36739150250539_1_alg».proof.Proof.Gen.KernelIdeal.Frame
import proofs.«112358_j36739150250539_1_alg».proof.Proof.Gen.ReferenceIdeal
import proofs.«112358_j36739150250539_1_alg».proof.Proof.Gen.KernelIdeal.Value
import proofs.«112358_j36739150250539_1_alg».proof.Proof.Gen.Pre_finite_inputs
import proofs.«112358_j36739150250539_1_alg».proof.Proof.HaarArray
import proofs.«112358_j36739150250539_1_alg».proof.Proof.HaarRef
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.Haar.RefRun.run (F := Ideal) m ρ)

/-- The idealization rewrote no operation. -/
theorem preserves : Cert.preserves_Kernel_KernelIdeal := trivial

/-- Both runs end with the result array at the inverse Haar step of the reshaped argument. -/
theorem algebraic : Cert.algebraic_KernelIdeal_ReferenceIdeal := by
  intro m ρ m' ρ' _ hagree
  refine ⟨_, Cert.Haar.Kernel.run (F := Ideal) m ρ, ?_⟩
  refine (θ_run Cert.ReferenceIdeal.defs _ _).mono (fun _ h c => ⟨(h c).1.trans ?_, (h c).2⟩)
    (Cert.Haar.RefRun.run (F := Ideal) m' ρ')
  rw [Cert.Haar.Ref.result_eq, hagree c]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
